-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40960 : Shape := ⟨1, ![40960]⟩
abbrev S2x172032 : Shape := ⟨2, ![2, 172032]⟩
abbrev S2x196608 : Shape := ⟨2, ![2, 196608]⟩
abbrev S100001x256 : Shape := ⟨2, ![100001, 256]⟩
abbrev S100001x1 : Shape := ⟨2, ![100001, 1]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S768x256 : Shape := ⟨2, ![768, 256]⟩
abbrev S768 : Shape := ⟨1, ![768]⟩
abbrev S40960x256 : Shape := ⟨2, ![40960, 256]⟩
abbrev S_ : Shape := ⟨0, ![]⟩

class Facts : Prop where
  bcast_S_S100001x256 : S_.BroadcastsInDim S100001x256 (![] : Fin 0 → Fin S100001x256.rank)
  reducesTo_S100001x256_S_d0_1 : S100001x256.ReducesTo [0, 1] S_
  h_S_ : 0 < S_.numel
  bcast_S_S100001x1 : S_.BroadcastsInDim S100001x1 (![] : Fin 0 → Fin S100001x1.rank)
  reducesTo_S100001x1_S_d0_1 : S100001x1.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S40960x256 : S_.BroadcastsInDim S40960x256 (![] : Fin 0 → Fin S40960x256.rank)
  reducesTo_S40960x256_S_d0_1 : S40960x256.ReducesTo [0, 1] S_

variable [Facts]

def fn_part3 {F : FTy → Type} [FloatOps F] (main_v48 : IVec S_ 1) (main_v49 : FVec F S40960x256 .f32) (main_v50 : FVec F S40960x256 .f32) : IVec S_ 1 :=
  let main_v51 : IVec S40960x256 1 := cmpf .olt main_v49 main_v50
  let main_c_19 : IVec S_ 1 := constantI S_ 1 1#1
  let main_v52 : IVec S_ 1 := (fun x v => Host.reduce IntOp.andi x v reducesTo_S40960x256_S_d0_1 h_S_) main_v51 main_c_19
  let main_v53 : IVec S_ 1 := andi main_v48 main_v52
  main_v53

def fn_part2 {F : FTy → Type} [FloatOps F] (main_arg12 : FVec F S768x256 .f32) (main_arg13 : FVec F S768 .f32) (main_arg14 : FVec F S768 .f32) (main_arg15 : FVec F S40960x256 .f32) (main_v33 : IVec S_ 1) : IVec S_ 1 :=
  let main_v34 : FVec F S768x256 .f32 := Host.absf main_arg12
  let main_cst_12 : FVec F S_ .f32 := constant S_ .f32 0x7F800000#32
  let main_v35 : FVec F S768x256 .f32 := broadcastInDim S768x256 ![] bcast_S_S768x256 main_cst_12
  let main_v36 : IVec S768x256 1 := cmpf .olt main_v34 main_v35
  let main_c_13 : IVec S_ 1 := constantI S_ 1 1#1
  let main_v37 : IVec S_ 1 := (fun x v => Host.reduce IntOp.andi x v reducesTo_S768x256_S_d0_1 h_S_) main_v36 main_c_13
  let main_v38 : IVec S_ 1 := andi main_v33 main_v37
  let main_v39 : FVec F S768 .f32 := Host.absf main_arg13
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg14
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S40960x256 .f32 := Host.absf main_arg15
  let main_cst_18 : FVec F S_ .f32 := constant S_ .f32 0x7F800000#32
  let main_v50 : FVec F S40960x256 .f32 := broadcastInDim S40960x256 ![] bcast_S_S40960x256 main_cst_18
  fn_part3 (F := F) main_v48 main_v49 main_v50

def fn_part1 {F : FTy → Type} [FloatOps F] (main_arg9 : FVec F S256x1024 .f32) (main_arg10 : FVec F S256 .f32) (main_arg11 : FVec F S768x256 .f32) (main_arg12 : FVec F S768x256 .f32) (main_arg13 : FVec F S768 .f32) (main_arg14 : FVec F S768 .f32) (main_arg15 : FVec F S40960x256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S256x1024 .f32 := Host.absf main_arg9
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256 .f32 := Host.absf main_arg10
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S768x256 .f32 := Host.absf main_arg11
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg12 main_arg13 main_arg14 main_arg15 main_v33

def fn {F : FTy → Type} [FloatOps F] (main_arg0 : IVec S40960 32) (main_arg1 : IVec S40960 32) (main_arg2 : IVec S40960 32) (main_arg3 : IVec S2x172032 32) (main_arg4 : IVec S2x196608 32) (main_arg5 : FVec F S100001x256 .f32) (main_arg6 : FVec F S100001x1 .f32) (main_arg7 : FVec F S1024x256 .f32) (main_arg8 : FVec F S1024 .f32) (main_arg9 : FVec F S256x1024 .f32) (main_arg10 : FVec F S256 .f32) (main_arg11 : FVec F S768x256 .f32) (main_arg12 : FVec F S768x256 .f32) (main_arg13 : FVec F S768 .f32) (main_arg14 : FVec F S768 .f32) (main_arg15 : FVec F S40960x256 .f32) : IVec S_ 1 :=
  let main_v0 : FVec F S100001x256 .f32 := Host.absf main_arg5
  let main_cst : FVec F S_ .f32 := constant S_ .f32 0x7F800000#32
  let main_v1 : FVec F S100001x256 .f32 := broadcastInDim S100001x256 ![] bcast_S_S100001x256 main_cst
  let main_v2 : IVec S100001x256 1 := cmpf .olt main_v0 main_v1
  let main_c : IVec S_ 1 := constantI S_ 1 1#1
  let main_v3 : IVec S_ 1 := (fun x v => Host.reduce IntOp.andi x v reducesTo_S100001x256_S_d0_1 h_S_) main_v2 main_c
  let main_v4 : FVec F S100001x1 .f32 := Host.absf main_arg6
  let main_cst_0 : FVec F S_ .f32 := constant S_ .f32 0x7F800000#32
  let main_v5 : FVec F S100001x1 .f32 := broadcastInDim S100001x1 ![] bcast_S_S100001x1 main_cst_0
  let main_v6 : IVec S100001x1 1 := cmpf .olt main_v4 main_v5
  let main_c_1 : IVec S_ 1 := constantI S_ 1 1#1
  let main_v7 : IVec S_ 1 := (fun x v => Host.reduce IntOp.andi x v reducesTo_S100001x1_S_d0_1 h_S_) main_v6 main_c_1
  let main_v8 : IVec S_ 1 := andi main_v3 main_v7
  let main_v9 : FVec F S1024x256 .f32 := Host.absf main_arg7
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024 .f32 := Host.absf main_arg8
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg9 main_arg10 main_arg11 main_arg12 main_arg13 main_arg14 main_arg15 main_v13 main_v16
-- ==== Kernel.lean ====
abbrev S40960 : Shape := ⟨1, ![40960]⟩
abbrev S2x172032 : Shape := ⟨2, ![2, 172032]⟩
abbrev S2x196608 : Shape := ⟨2, ![2, 196608]⟩
abbrev S100001x256 : Shape := ⟨2, ![100001, 256]⟩
abbrev S100001x1 : Shape := ⟨2, ![100001, 1]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S768x256 : Shape := ⟨2, ![768, 256]⟩
abbrev S768 : Shape := ⟨1, ![768]⟩
abbrev S40960x256 : Shape := ⟨2, ![40960, 256]⟩
abbrev S_ : Shape := ⟨0, ![]⟩
abbrev S40960x1 : Shape := ⟨2, ![40960, 1]⟩
abbrev S4096 : Shape := ⟨1, ![4096]⟩
abbrev S1x172032 : Shape := ⟨2, ![1, 172032]⟩
abbrev S172032 : Shape := ⟨1, ![172032]⟩
abbrev S172032x1 : Shape := ⟨2, ![172032, 1]⟩
abbrev S172032x256 : Shape := ⟨2, ![172032, 256]⟩
abbrev S1024x1024 : Shape := ⟨2, ![1024, 1024]⟩
abbrev S1x1024 : Shape := ⟨2, ![1, 1024]⟩
abbrev S1x256 : Shape := ⟨2, ![1, 256]⟩
abbrev S1x196608 : Shape := ⟨2, ![1, 196608]⟩
abbrev S196608 : Shape := ⟨1, ![196608]⟩
abbrev S196608x1 : Shape := ⟨2, ![196608, 1]⟩
abbrev S196608x256 : Shape := ⟨2, ![196608, 256]⟩
abbrev S256x768 : Shape := ⟨2, ![256, 768]⟩
abbrev S1024x768 : Shape := ⟨2, ![1024, 768]⟩
abbrev S1x768 : Shape := ⟨2, ![1, 768]⟩
abbrev S8192x256 : Shape := ⟨2, ![8192, 256]⟩
abbrev S8192 : Shape := ⟨1, ![8192]⟩
abbrev S8192x1 : Shape := ⟨2, ![8192, 1]⟩
abbrev S4096x256 : Shape := ⟨2, ![4096, 256]⟩
abbrev S4096x1 : Shape := ⟨2, ![4096, 1]⟩

abbrev nBuf : Space → Nat
  | .hbm => 158
  | .vmem => 22
  | .smem => 0
  | _ => 0

abbrev hbmTy0_0 (i : Nat) : BufTy := match i % 128 with
  | 0 => ⟨S40960, .i32⟩
  | 1 => ⟨S40960, .i32⟩
  | 2 => ⟨S40960, .i32⟩
  | 3 => ⟨S2x172032, .i32⟩
  | 4 => ⟨S2x196608, .i32⟩
  | 5 => ⟨S100001x256, .f32⟩
  | 6 => ⟨S100001x1, .f32⟩
  | 7 => ⟨S1024x256, .f32⟩
  | 8 => ⟨S1024, .f32⟩
  | 9 => ⟨S256x1024, .f32⟩
  | 10 => ⟨S256, .f32⟩
  | 11 => ⟨S768x256, .f32⟩
  | 12 => ⟨S768x256, .f32⟩
  | 13 => ⟨S768, .f32⟩
  | 14 => ⟨S768, .f32⟩
  | 15 => ⟨S40960x256, .f32⟩
  | 16 => ⟨S_, .i32⟩
  | 17 => ⟨S40960, .i32⟩
  | 18 => ⟨S40960, .i1⟩
  | 19 => ⟨S_, .i32⟩
  | 20 => ⟨S40960, .i32⟩
  | 21 => ⟨S40960, .i32⟩
  | 22 => ⟨S40960, .i32⟩
  | 23 => ⟨S40960x1, .i32⟩
  | 24 => ⟨S40960x1, .f32⟩
  | 25 => ⟨S40960, .f32⟩
  | 26 => ⟨S_, .f32⟩
  | 27 => ⟨S4096, .f32⟩
  | 28 => ⟨S40960x1, .i32⟩
  | 29 => ⟨S4096, .f32⟩
  | 30 => ⟨S_, .i32⟩
  | 31 => ⟨S40960, .i32⟩
  | 32 => ⟨S40960, .i1⟩
  | 33 => ⟨S_, .i32⟩
  | 34 => ⟨S40960, .i32⟩
  | 35 => ⟨S40960, .i32⟩
  | 36 => ⟨S40960, .i32⟩
  | 37 => ⟨S40960x1, .i32⟩
  | 38 => ⟨S40960x256, .f32⟩
  | 39 => ⟨S1x172032, .i32⟩
  | 40 => ⟨S172032, .i32⟩
  | 41 => ⟨S1x172032, .i32⟩
  | 42 => ⟨S172032, .i32⟩
  | 43 => ⟨S_, .i32⟩
  | 44 => ⟨S172032, .i32⟩
  | 45 => ⟨S172032, .i1⟩
  | 46 => ⟨S_, .i32⟩
  | 47 => ⟨S172032, .i32⟩
  | 48 => ⟨S172032, .i32⟩
  | 49 => ⟨S172032, .i32⟩
  | 50 => ⟨S172032x1, .i32⟩
  | 51 => ⟨S172032x256, .f32⟩
  | 52 => ⟨S_, .i32⟩
  | 53 => ⟨S172032, .i32⟩
  | 54 => ⟨S172032, .i1⟩
  | 55 => ⟨S_, .i32⟩
  | 56 => ⟨S172032, .i32⟩
  | 57 => ⟨S172032, .i32⟩
  | 58 => ⟨S172032, .i32⟩
  | 59 => ⟨S172032x1, .i32⟩
  | 60 => ⟨S172032x256, .f32⟩
  | 61 => ⟨S172032x256, .f32⟩
  | 62 => ⟨S256x1024, .f32⟩
  | 63 => ⟨S256x1024, .bf16⟩
  | 64 => ⟨S1024x256, .f32⟩
  | 65 => ⟨S1024x256, .bf16⟩
  | 66 => ⟨S172032x256, .f32⟩
  | 67 => ⟨S_, .f32⟩
  | 68 => ⟨S40960x256, .f32⟩
  | 69 => ⟨S172032x1, .i32⟩
  | 70 => ⟨S40960x256, .f32⟩
  | 71 => ⟨S_, .f32⟩
  | 72 => ⟨S172032, .f32⟩
  | 73 => ⟨S_, .f32⟩
  | 74 => ⟨S40960, .f32⟩
  | 75 => ⟨S172032x1, .i32⟩
  | 76 => ⟨S40960, .f32⟩
  | 77 => ⟨S_, .f32⟩
  | 78 => ⟨S40960, .f32⟩
  | 79 => ⟨S40960, .f32⟩
  | 80 => ⟨S40960x1, .f32⟩
  | 81 => ⟨S40960x256, .f32⟩
  | 82 => ⟨S40960x256, .f32⟩
  | 83 => ⟨S1x196608, .i32⟩
  | 84 => ⟨S196608, .i32⟩
  | 85 => ⟨S1x196608, .i32⟩
  | 86 => ⟨S196608, .i32⟩
  | 87 => ⟨S_, .i32⟩
  | 88 => ⟨S196608, .i32⟩
  | 89 => ⟨S196608, .i1⟩
  | 90 => ⟨S_, .i32⟩
  | 91 => ⟨S196608, .i32⟩
  | 92 => ⟨S196608, .i32⟩
  | 93 => ⟨S196608, .i32⟩
  | 94 => ⟨S196608x1, .i32⟩
  | 95 => ⟨S196608x256, .f32⟩
  | 96 => ⟨S_, .i32⟩
  | 97 => ⟨S196608, .i32⟩
  | 98 => ⟨S196608, .i1⟩
  | 99 => ⟨S_, .i32⟩
  | 100 => ⟨S196608, .i32⟩
  | 101 => ⟨S196608, .i32⟩
  | 102 => ⟨S196608, .i32⟩
  | 103 => ⟨S196608x1, .i32⟩
  | 104 => ⟨S196608x256, .f32⟩
  | 105 => ⟨S196608x256, .f32⟩
  | 106 => ⟨S_, .f32⟩
  | 107 => ⟨S40960x256, .f32⟩
  | 108 => ⟨S196608x1, .i32⟩
  | 109 => ⟨S40960x256, .f32⟩
  | 110 => ⟨S_, .f32⟩
  | 111 => ⟨S196608, .f32⟩
  | 112 => ⟨S_, .f32⟩
  | 113 => ⟨S40960, .f32⟩
  | 114 => ⟨S196608x1, .i32⟩
  | 115 => ⟨S40960, .f32⟩
  | 116 => ⟨S_, .f32⟩
  | 117 => ⟨S40960, .f32⟩
  | 118 => ⟨S40960, .f32⟩
  | 119 => ⟨S40960x1, .f32⟩
  | 120 => ⟨S40960x256, .f32⟩
  | 121 => ⟨S40960x256, .f32⟩
  | 122 => ⟨S256x768, .f32⟩
  | 123 => ⟨S256x768, .bf16⟩
  | 124 => ⟨S256x768, .f32⟩
  | 125 => ⟨S256x768, .bf16⟩
  | 126 => ⟨S40960x256, .f32⟩
  | 127 => ⟨S_, .f32⟩
  | _ => ⟨S40960, .i32⟩

abbrev hbmTy0_1 (i : Nat) : BufTy := match i % 128 with
  | 0 => ⟨S8192x256, .f32⟩
  | 1 => ⟨S40960x1, .i32⟩
  | 2 => ⟨S8192x256, .f32⟩
  | 3 => ⟨S_, .f32⟩
  | 4 => ⟨S40960, .f32⟩
  | 5 => ⟨S_, .f32⟩
  | 6 => ⟨S8192, .f32⟩
  | 7 => ⟨S40960x1, .i32⟩
  | 8 => ⟨S8192, .f32⟩
  | 9 => ⟨S_, .f32⟩
  | 10 => ⟨S8192, .f32⟩
  | 11 => ⟨S8192, .f32⟩
  | 12 => ⟨S8192x1, .f32⟩
  | 13 => ⟨S8192x256, .f32⟩
  | 14 => ⟨S8192x256, .f32⟩
  | 15 => ⟨S4096x256, .f32⟩
  | 16 => ⟨S4096x256, .f32⟩
  | 17 => ⟨S4096x256, .f32⟩
  | 18 => ⟨S_, .f32⟩
  | 19 => ⟨S4096, .f32⟩
  | 20 => ⟨S4096, .f32⟩
  | 21 => ⟨S4096, .f32⟩
  | 22 => ⟨S4096, .f32⟩
  | 23 => ⟨S_, .f32⟩
  | 24 => ⟨S4096, .f32⟩
  | 25 => ⟨S4096, .f32⟩
  | 26 => ⟨S_, .f32⟩
  | 27 => ⟨S4096, .f32⟩
  | 28 => ⟨S4096, .f32⟩
  | 29 => ⟨S4096x1, .f32⟩
  | _ => ⟨S40960, .i32⟩

abbrev hbmTy (i : Nat) : BufTy := match i / 128 with
  | 0 => hbmTy0_0 i
  | 1 => hbmTy0_1 i
  | _ => ⟨S40960, .i32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024, .f32⟩
  | .local _ .vmem, ⟨4, _⟩ => ⟨S1024x256, .bf16⟩
  | .local _ .vmem, ⟨5, _⟩ => ⟨S256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S256x768, .bf16⟩
  | .local _ .vmem, ⟨17, _⟩ => ⟨S256x768, .bf16⟩
  | .local _ .vmem, ⟨18, _⟩ => ⟨S768, .f32⟩
  | .local _ .vmem, ⟨19, _⟩ => ⟨S768, .f32⟩
  | .local _ .vmem, ⟨20, _⟩ => ⟨S1024x256, .f32⟩
  | .local _ .vmem, ⟨21, _⟩ => ⟨S1024x256, .f32⟩
  | _, _ => ⟨S40960, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_c_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_c_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_15 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_16 : Ref sig .tc := ⟨.hbm, 110, rfl⟩
abbrev main_v76 : Ref sig .tc := ⟨.hbm, 111, rfl⟩
abbrev main_cst_17 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_18 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_19 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_20 : Ref sig .tc := ⟨.hbm, 131, rfl⟩
abbrev main_v93 : Ref sig .tc := ⟨.hbm, 132, rfl⟩
abbrev main_cst_21 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_22 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_23 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_24 : Ref sig .tc := ⟨.hbm, 151, rfl⟩
abbrev main_v109 : Ref sig .tc := ⟨.hbm, 152, rfl⟩
abbrev main_v110 : Ref sig .tc := ⟨.hbm, 153, rfl⟩
abbrev main_cst_25 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![168], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x768 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x768 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S40960 : S_.BroadcastsInDim S40960 (![] : Fin 0 → Fin S40960.rank)
  bcast_S40960_S40960x1_0 : S40960.BroadcastsInDim S40960x1 (![0] : Fin 1 → Fin S40960x1.rank)
  shapeCasts_S40960x1_S40960 : S40960x1.ShapeCasts S40960
  bcast_S_S4096 : S_.BroadcastsInDim S4096 (![] : Fin 0 → Fin S4096.rank)
  slices_S2x172032_S1x172032_0_0 : S2x172032.Slices ![0, 0] S1x172032
  shapeCasts_S1x172032_S172032 : S1x172032.ShapeCasts S172032
  slices_S2x172032_S1x172032_1_0 : S2x172032.Slices ![1, 0] S1x172032
  bcast_S_S172032 : S_.BroadcastsInDim S172032 (![] : Fin 0 → Fin S172032.rank)
  bcast_S172032_S172032x1_0 : S172032.BroadcastsInDim S172032x1 (![0] : Fin 1 → Fin S172032x1.rank)
  transposes_S1024x256_S256x1024_1_0 : S1024x256.Transposes [1, 0] S256x1024
  bitsLt_bf16_f32 : FTy.bits .bf16 < FTy.bits .f32
  transposes_S256x1024_S1024x256_1_0 : S256x1024.Transposes [1, 0] S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  bcast_S_S40960x256 : S_.BroadcastsInDim S40960x256 (![] : Fin 0 → Fin S40960x256.rank)
  bcast_S40960x1_S40960x256_0_1 : S40960x1.BroadcastsInDim S40960x256 (![0, 1] : Fin 2 → Fin S40960x256.rank)
  slices_S2x196608_S1x196608_0_0 : S2x196608.Slices ![0, 0] S1x196608
  shapeCasts_S1x196608_S196608 : S1x196608.ShapeCasts S196608
  slices_S2x196608_S1x196608_1_0 : S2x196608.Slices ![1, 0] S1x196608
  bcast_S_S196608 : S_.BroadcastsInDim S196608 (![] : Fin 0 → Fin S196608.rank)
  bcast_S196608_S196608x1_0 : S196608.BroadcastsInDim S196608x1 (![0] : Fin 1 → Fin S196608x1.rank)
  transposes_S768x256_S256x768_1_0 : S768x256.Transposes [1, 0] S256x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  h_S_ : 0 < S_.numel
  bcast_S4096_S4096x1_0 : S4096.BroadcastsInDim S4096x1 (![0] : Fin 1 → Fin S4096x1.rank)
  gather_S100001x1_S40960x1_S40960x1_1_0_n_n_0_1_11_wf : GatherDims.WF S100001x1 S40960x1 S40960x1 [1] [0] [] [0] [] 1 ![1, 1]
  scatter_S4096_S40960x1_S40960_n_0_0_1_wf : ScatterDims.WF S4096 S40960x1 S40960 [] [0] [0] 1
  gather_S100001x256_S40960x1_S40960x256_1_0_n_n_0_1_1256_wf : GatherDims.WF S100001x256 S40960x1 S40960x256 [1] [0] [] [0] [] 1 ![1, 256]
  gather_S40960x256_S172032x1_S172032x256_1_0_n_n_0_1_1256_wf : GatherDims.WF S40960x256 S172032x1 S172032x256 [1] [0] [] [0] [] 1 ![1, 256]
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  scatter_S40960x256_S172032x1_S172032x256_1_0_0_1_wf : ScatterDims.WF S40960x256 S172032x1 S172032x256 [1] [0] [0] 1
  scatter_S40960_S172032x1_S172032_n_0_0_1_wf : ScatterDims.WF S40960 S172032x1 S172032 [] [0] [0] 1
  gather_S40960x256_S196608x1_S196608x256_1_0_n_n_0_1_1256_wf : GatherDims.WF S40960x256 S196608x1 S196608x256 [1] [0] [] [0] [] 1 ![1, 256]
  scatter_S40960x256_S196608x1_S196608x256_1_0_0_1_wf : ScatterDims.WF S40960x256 S196608x1 S196608x256 [1] [0] [0] 1
  scatter_S40960_S196608x1_S196608_n_0_0_1_wf : ScatterDims.WF S40960 S196608x1 S196608 [] [0] [0] 1
  dot_S1024x256_S256x768_S1024x768_1_0_0_1_n_n_wf : DotDims.WF S1024x256 S256x768 S1024x768 [1] [0] [0] [1] [] []
  scatter_S8192x256_S40960x1_S40960x256_1_0_0_1_wf : ScatterDims.WF S8192x256 S40960x1 S40960x256 [1] [0] [0] 1
  scatter_S8192_S40960x1_S40960_n_0_0_1_wf : ScatterDims.WF S8192 S40960x1 S40960 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S172032x256.size a
  hwx0_0 : ∀ i : grid0.Coords, EltTy.bits .f32 = 32 ∨ (Rect.block (s := S172032x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S172032x256.size a
  hwx0_5 : ∀ i : grid0.Coords, EltTy.bits .f32 = 32 ∨ (Rect.block (s := S172032x256) S1024x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S40960x256.size a
  hwx1_0 : ∀ i : grid1.Coords, EltTy.bits .f32 = 32 ∨ (Rect.block (s := S40960x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S40960x256.size a
  hwx1_1 : ∀ i : grid1.Coords, EltTy.bits .f32 = 32 ∨ (Rect.block (s := S40960x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S40960x256.size a
  hwx1_2 : ∀ i : grid1.Coords, EltTy.bits .f32 = 32 ∨ (Rect.block (s := S40960x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S40960x256.size a
  hwx1_3 : ∀ i : grid1.Coords, EltTy.bits .f32 = 32 ∨ (Rect.block (s := S40960x256) S1024x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x768.size a ≤ S256x768.size a
  hwx1_4 : ∀ i : grid1.Coords, EltTy.bits .bf16 = 32 ∨ (Rect.block (s := S256x768) S256x768.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x768.size a ≤ S256x768.size a
  hwx1_5 : ∀ i : grid1.Coords, EltTy.bits .bf16 = 32 ∨ (Rect.block (s := S256x768) S256x768.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S768.size a ≤ S768.size a
  hwx1_6 : ∀ i : grid1.Coords, EltTy.bits .f32 = 32 ∨ (Rect.block (s := S768) S768.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S768.size a ≤ S768.size a
  hwx1_7 : ∀ i : grid1.Coords, EltTy.bits .f32 = 32 ∨ (Rect.block (s := S768) S768.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x256.size a ≤ S40960x256.size a
  hwx1_8 : ∀ i : grid1.Coords, EltTy.bits .f32 = 32 ∨ (Rect.block (s := S40960x256) S1024x256.size (cc1_transform_8 i) (hinb1_8 i)).WholeWords (EltTy.packing .f32)

variable [Facts₀]

def gather_S100001x1_S40960x1_S40960x1_1_0_n_n_0_1_11 : GatherDims S100001x1 S40960x1 S40960x1 where
  offsetDims := [1]
  collapsedSliceDims := [0]
  operandBatchingDims := []
  startIndicesBatchingDims := []
  startIndexMap := [0]
  indexVectorDim := 1
  sliceSizes := ![1, 1]
  wf := gather_S100001x1_S40960x1_S40960x1_1_0_n_n_0_1_11_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def gather_S100001x256_S40960x1_S40960x256_1_0_n_n_0_1_1256 : GatherDims S100001x256 S40960x1 S40960x256 where
  offsetDims := [1]
  collapsedSliceDims := [0]
  operandBatchingDims := []
  startIndicesBatchingDims := []
  startIndexMap := [0]
  indexVectorDim := 1
  sliceSizes := ![1, 256]
  wf := gather_S100001x256_S40960x1_S40960x256_1_0_n_n_0_1_1256_wf
def gather_S40960x256_S172032x1_S172032x256_1_0_n_n_0_1_1256 : GatherDims S40960x256 S172032x1 S172032x256 where
  offsetDims := [1]
  collapsedSliceDims := [0]
  operandBatchingDims := []
  startIndicesBatchingDims := []
  startIndexMap := [0]
  indexVectorDim := 1
  sliceSizes := ![1, 256]
  wf := gather_S40960x256_S172032x1_S172032x256_1_0_n_n_0_1_1256_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def scatter_S40960x256_S172032x1_S172032x256_1_0_0_1 : ScatterDims S40960x256 S172032x1 S172032x256 where
  updateWindowDims := [1]
  insertedWindowDims := [0]
  scatterDimsToOperandDims := [0]
  indexVectorDim := 1
  wf := scatter_S40960x256_S172032x1_S172032x256_1_0_0_1_wf
def scatter_S40960_S172032x1_S172032_n_0_0_1 : ScatterDims S40960 S172032x1 S172032 where
  updateWindowDims := []
  insertedWindowDims := [0]
  scatterDimsToOperandDims := [0]
  indexVectorDim := 1
  wf := scatter_S40960_S172032x1_S172032_n_0_0_1_wf
def gather_S40960x256_S196608x1_S196608x256_1_0_n_n_0_1_1256 : GatherDims S40960x256 S196608x1 S196608x256 where
  offsetDims := [1]
  collapsedSliceDims := [0]
  operandBatchingDims := []
  startIndicesBatchingDims := []
  startIndexMap := [0]
  indexVectorDim := 1
  sliceSizes := ![1, 256]
  wf := gather_S40960x256_S196608x1_S196608x256_1_0_n_n_0_1_1256_wf
def scatter_S40960x256_S196608x1_S196608x256_1_0_0_1 : ScatterDims S40960x256 S196608x1 S196608x256 where
  updateWindowDims := [1]
  insertedWindowDims := [0]
  scatterDimsToOperandDims := [0]
  indexVectorDim := 1
  wf := scatter_S40960x256_S196608x1_S196608x256_1_0_0_1_wf
def scatter_S40960_S196608x1_S196608_n_0_0_1 : ScatterDims S40960 S196608x1 S196608 where
  updateWindowDims := []
  insertedWindowDims := [0]
  scatterDimsToOperandDims := [0]
  indexVectorDim := 1
  wf := scatter_S40960_S196608x1_S196608_n_0_0_1_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def scatter_S8192x256_S40960x1_S40960x256_1_0_0_1 : ScatterDims S8192x256 S40960x1 S40960x256 where
  updateWindowDims := [1]
  insertedWindowDims := [0]
  scatterDimsToOperandDims := [0]
  indexVectorDim := 1
  wf := scatter_S8192x256_S40960x1_S40960x256_1_0_0_1_wf
def scatter_S8192_S40960x1_S40960_n_0_0_1 : ScatterDims S8192 S40960x1 S40960 where
  updateWindowDims := []
  insertedWindowDims := [0]
  scatterDimsToOperandDims := [0]
  indexVectorDim := 1
  wf := scatter_S8192_S40960x1_S40960_n_0_0_1_wf

abbrev win0_0 : Pipeline.Window sig grid0 :=
  Pipeline.Window.ofSpec (Memref.whole main_v36) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v84) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v86) S256x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v88) S256x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S768.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S768.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v89) S1024x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S40960 : Shape := ⟨1, ![40960]⟩
abbrev S2x172032 : Shape := ⟨2, ![2, 172032]⟩
abbrev S2x196608 : Shape := ⟨2, ![2, 196608]⟩
abbrev S100001x256 : Shape := ⟨2, ![100001, 256]⟩
abbrev S100001x1 : Shape := ⟨2, ![100001, 1]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S768x256 : Shape := ⟨2, ![768, 256]⟩
abbrev S768 : Shape := ⟨1, ![768]⟩
abbrev S40960x256 : Shape := ⟨2, ![40960, 256]⟩
abbrev S_ : Shape := ⟨0, ![]⟩
abbrev S40960x1 : Shape := ⟨2, ![40960, 1]⟩
abbrev S4096 : Shape := ⟨1, ![4096]⟩
abbrev S1x172032 : Shape := ⟨2, ![1, 172032]⟩
abbrev S172032 : Shape := ⟨1, ![172032]⟩
abbrev S172032x1 : Shape := ⟨2, ![172032, 1]⟩
abbrev S172032x256 : Shape := ⟨2, ![172032, 256]⟩
abbrev S172032x1024 : Shape := ⟨2, ![172032, 1024]⟩
abbrev S1x1024 : Shape := ⟨2, ![1, 1024]⟩
abbrev S1x256 : Shape := ⟨2, ![1, 256]⟩
abbrev S1x196608 : Shape := ⟨2, ![1, 196608]⟩
abbrev S196608 : Shape := ⟨1, ![196608]⟩
abbrev S196608x1 : Shape := ⟨2, ![196608, 1]⟩
abbrev S196608x256 : Shape := ⟨2, ![196608, 256]⟩
abbrev S256x768 : Shape := ⟨2, ![256, 768]⟩
abbrev S40960x768 : Shape := ⟨2, ![40960, 768]⟩
abbrev S1x768 : Shape := ⟨2, ![1, 768]⟩
abbrev S8192x256 : Shape := ⟨2, ![8192, 256]⟩
abbrev S8192 : Shape := ⟨1, ![8192]⟩
abbrev S8192x1 : Shape := ⟨2, ![8192, 1]⟩
abbrev S4096x256 : Shape := ⟨2, ![4096, 256]⟩
abbrev S4096x1 : Shape := ⟨2, ![4096, 1]⟩

abbrev nBuf : Space → Nat
  | .hbm => 290
  | .vmem => 0
  | .smem => 0
  | _ => 0

abbrev hbmTy0_0 (i : Nat) : BufTy := match i % 128 with
  | 0 => ⟨S40960, .i32⟩
  | 1 => ⟨S40960, .i32⟩
  | 2 => ⟨S40960, .i32⟩
  | 3 => ⟨S2x172032, .i32⟩
  | 4 => ⟨S2x196608, .i32⟩
  | 5 => ⟨S100001x256, .f32⟩
  | 6 => ⟨S100001x1, .f32⟩
  | 7 => ⟨S1024x256, .f32⟩
  | 8 => ⟨S1024, .f32⟩
  | 9 => ⟨S256x1024, .f32⟩
  | 10 => ⟨S256, .f32⟩
  | 11 => ⟨S768x256, .f32⟩
  | 12 => ⟨S768x256, .f32⟩
  | 13 => ⟨S768, .f32⟩
  | 14 => ⟨S768, .f32⟩
  | 15 => ⟨S40960x256, .f32⟩
  | 16 => ⟨S_, .i32⟩
  | 17 => ⟨S40960, .i32⟩
  | 18 => ⟨S40960, .i1⟩
  | 19 => ⟨S_, .i32⟩
  | 20 => ⟨S40960, .i32⟩
  | 21 => ⟨S40960, .i32⟩
  | 22 => ⟨S40960, .i32⟩
  | 23 => ⟨S40960x1, .i32⟩
  | 24 => ⟨S40960x1, .f32⟩
  | 25 => ⟨S40960, .f32⟩
  | 26 => ⟨S_, .f32⟩
  | 27 => ⟨S4096, .f32⟩
  | 28 => ⟨S40960x1, .i32⟩
  | 29 => ⟨S4096, .f32⟩
  | 30 => ⟨S_, .i32⟩
  | 31 => ⟨S40960, .i32⟩
  | 32 => ⟨S40960, .i1⟩
  | 33 => ⟨S_, .i32⟩
  | 34 => ⟨S40960, .i32⟩
  | 35 => ⟨S40960, .i32⟩
  | 36 => ⟨S40960, .i32⟩
  | 37 => ⟨S40960x1, .i32⟩
  | 38 => ⟨S40960x256, .f32⟩
  | 39 => ⟨S1x172032, .i32⟩
  | 40 => ⟨S172032, .i32⟩
  | 41 => ⟨S1x172032, .i32⟩
  | 42 => ⟨S172032, .i32⟩
  | 43 => ⟨S_, .i32⟩
  | 44 => ⟨S172032, .i32⟩
  | 45 => ⟨S172032, .i1⟩
  | 46 => ⟨S_, .i32⟩
  | 47 => ⟨S172032, .i32⟩
  | 48 => ⟨S172032, .i32⟩
  | 49 => ⟨S172032, .i32⟩
  | 50 => ⟨S172032x1, .i32⟩
  | 51 => ⟨S172032x256, .f32⟩
  | 52 => ⟨S_, .i32⟩
  | 53 => ⟨S172032, .i32⟩
  | 54 => ⟨S172032, .i1⟩
  | 55 => ⟨S_, .i32⟩
  | 56 => ⟨S172032, .i32⟩
  | 57 => ⟨S172032, .i32⟩
  | 58 => ⟨S172032, .i32⟩
  | 59 => ⟨S172032x1, .i32⟩
  | 60 => ⟨S172032x256, .f32⟩
  | 61 => ⟨S172032x256, .f32⟩
  | 62 => ⟨S256x1024, .f32⟩
  | 63 => ⟨S172032x1024, .f32⟩
  | 64 => ⟨S1x1024, .f32⟩
  | 65 => ⟨S172032x1024, .f32⟩
  | 66 => ⟨S172032x1024, .f32⟩
  | 67 => ⟨S_, .f32⟩
  | 68 => ⟨S172032x1024, .f32⟩
  | 69 => ⟨S172032x1024, .f32⟩
  | 70 => ⟨S1024x256, .f32⟩
  | 71 => ⟨S172032x256, .f32⟩
  | 72 => ⟨S1x256, .f32⟩
  | 73 => ⟨S172032x256, .f32⟩
  | 74 => ⟨S172032x256, .f32⟩
  | 75 => ⟨S_, .f32⟩
  | 76 => ⟨S40960x256, .f32⟩
  | 77 => ⟨S172032x1, .i32⟩
  | 78 => ⟨S40960x256, .f32⟩
  | 79 => ⟨S_, .f32⟩
  | 80 => ⟨S172032, .f32⟩
  | 81 => ⟨S_, .f32⟩
  | 82 => ⟨S40960, .f32⟩
  | 83 => ⟨S172032x1, .i32⟩
  | 84 => ⟨S40960, .f32⟩
  | 85 => ⟨S_, .f32⟩
  | 86 => ⟨S40960, .f32⟩
  | 87 => ⟨S40960, .f32⟩
  | 88 => ⟨S40960x1, .f32⟩
  | 89 => ⟨S40960x256, .f32⟩
  | 90 => ⟨S40960x256, .f32⟩
  | 91 => ⟨S1x196608, .i32⟩
  | 92 => ⟨S196608, .i32⟩
  | 93 => ⟨S1x196608, .i32⟩
  | 94 => ⟨S196608, .i32⟩
  | 95 => ⟨S_, .i32⟩
  | 96 => ⟨S196608, .i32⟩
  | 97 => ⟨S196608, .i1⟩
  | 98 => ⟨S_, .i32⟩
  | 99 => ⟨S196608, .i32⟩
  | 100 => ⟨S196608, .i32⟩
  | 101 => ⟨S196608, .i32⟩
  | 102 => ⟨S196608x1, .i32⟩
  | 103 => ⟨S196608x256, .f32⟩
  | 104 => ⟨S_, .i32⟩
  | 105 => ⟨S196608, .i32⟩
  | 106 => ⟨S196608, .i1⟩
  | 107 => ⟨S_, .i32⟩
  | 108 => ⟨S196608, .i32⟩
  | 109 => ⟨S196608, .i32⟩
  | 110 => ⟨S196608, .i32⟩
  | 111 => ⟨S196608x1, .i32⟩
  | 112 => ⟨S196608x256, .f32⟩
  | 113 => ⟨S196608x256, .f32⟩
  | 114 => ⟨S_, .f32⟩
  | 115 => ⟨S40960x256, .f32⟩
  | 116 => ⟨S196608x1, .i32⟩
  | 117 => ⟨S40960x256, .f32⟩
  | 118 => ⟨S_, .f32⟩
  | 119 => ⟨S196608, .f32⟩
  | 120 => ⟨S_, .f32⟩
  | 121 => ⟨S40960, .f32⟩
  | 122 => ⟨S196608x1, .i32⟩
  | 123 => ⟨S40960, .f32⟩
  | 124 => ⟨S_, .f32⟩
  | 125 => ⟨S40960, .f32⟩
  | 126 => ⟨S40960, .f32⟩
  | 127 => ⟨S40960x1, .f32⟩
  | _ => ⟨S40960, .i32⟩

abbrev hbmTy0_1 (i : Nat) : BufTy := match i % 128 with
  | 0 => ⟨S40960x256, .f32⟩
  | 1 => ⟨S40960x256, .f32⟩
  | 2 => ⟨S256x768, .f32⟩
  | 3 => ⟨S40960x768, .f32⟩
  | 4 => ⟨S1x768, .f32⟩
  | 5 => ⟨S40960x768, .f32⟩
  | 6 => ⟨S40960x768, .f32⟩
  | 7 => ⟨S256x768, .f32⟩
  | 8 => ⟨S40960x768, .f32⟩
  | 9 => ⟨S1x768, .f32⟩
  | 10 => ⟨S40960x768, .f32⟩
  | 11 => ⟨S40960x768, .f32⟩
  | 12 => ⟨S40960x256, .f32⟩
  | 13 => ⟨S40960x256, .f32⟩
  | 14 => ⟨S40960x256, .f32⟩
  | 15 => ⟨S40960x256, .f32⟩
  | 16 => ⟨S40960x256, .f32⟩
  | 17 => ⟨S40960x256, .f32⟩
  | 18 => ⟨S40960x256, .f32⟩
  | 19 => ⟨S40960x256, .f32⟩
  | 20 => ⟨S40960x256, .f32⟩
  | 21 => ⟨S_, .f32⟩
  | 22 => ⟨S40960x256, .f32⟩
  | 23 => ⟨S40960x256, .f32⟩
  | 24 => ⟨S_, .f32⟩
  | 25 => ⟨S40960x256, .f32⟩
  | 26 => ⟨S40960x256, .f32⟩
  | 27 => ⟨S40960x256, .f32⟩
  | 28 => ⟨S40960x256, .f32⟩
  | 29 => ⟨S40960x256, .f32⟩
  | 30 => ⟨S_, .f32⟩
  | 31 => ⟨S40960x256, .f32⟩
  | 32 => ⟨S40960x256, .f32⟩
  | 33 => ⟨S_, .f32⟩
  | 34 => ⟨S40960x256, .f32⟩
  | 35 => ⟨S40960x256, .f32⟩
  | 36 => ⟨S40960x256, .f32⟩
  | 37 => ⟨S40960x256, .f32⟩
  | 38 => ⟨S40960x256, .f32⟩
  | 39 => ⟨S_, .f32⟩
  | 40 => ⟨S40960x256, .f32⟩
  | 41 => ⟨S40960x256, .f32⟩
  | 42 => ⟨S40960x256, .f32⟩
  | 43 => ⟨S40960x256, .f32⟩
  | 44 => ⟨S40960x256, .f32⟩
  | 45 => ⟨S256x768, .f32⟩
  | 46 => ⟨S40960x768, .f32⟩
  | 47 => ⟨S1x768, .f32⟩
  | 48 => ⟨S40960x768, .f32⟩
  | 49 => ⟨S40960x768, .f32⟩
  | 50 => ⟨S256x768, .f32⟩
  | 51 => ⟨S40960x768, .f32⟩
  | 52 => ⟨S1x768, .f32⟩
  | 53 => ⟨S40960x768, .f32⟩
  | 54 => ⟨S40960x768, .f32⟩
  | 55 => ⟨S40960x256, .f32⟩
  | 56 => ⟨S40960x256, .f32⟩
  | 57 => ⟨S40960x256, .f32⟩
  | 58 => ⟨S40960x256, .f32⟩
  | 59 => ⟨S40960x256, .f32⟩
  | 60 => ⟨S40960x256, .f32⟩
  | 61 => ⟨S40960x256, .f32⟩
  | 62 => ⟨S40960x256, .f32⟩
  | 63 => ⟨S40960x256, .f32⟩
  | 64 => ⟨S_, .f32⟩
  | 65 => ⟨S40960x256, .f32⟩
  | 66 => ⟨S40960x256, .f32⟩
  | 67 => ⟨S_, .f32⟩
  | 68 => ⟨S40960x256, .f32⟩
  | 69 => ⟨S40960x256, .f32⟩
  | 70 => ⟨S40960x256, .f32⟩
  | 71 => ⟨S40960x256, .f32⟩
  | 72 => ⟨S40960x256, .f32⟩
  | 73 => ⟨S_, .f32⟩
  | 74 => ⟨S40960x256, .f32⟩
  | 75 => ⟨S40960x256, .f32⟩
  | 76 => ⟨S_, .f32⟩
  | 77 => ⟨S40960x256, .f32⟩
  | 78 => ⟨S40960x256, .f32⟩
  | 79 => ⟨S40960x256, .f32⟩
  | 80 => ⟨S40960x256, .f32⟩
  | 81 => ⟨S40960x256, .f32⟩
  | 82 => ⟨S_, .f32⟩
  | 83 => ⟨S40960x256, .f32⟩
  | 84 => ⟨S40960x256, .f32⟩
  | 85 => ⟨S40960x256, .f32⟩
  | 86 => ⟨S40960x256, .f32⟩
  | 87 => ⟨S40960x256, .f32⟩
  | 88 => ⟨S256x768, .f32⟩
  | 89 => ⟨S40960x768, .f32⟩
  | 90 => ⟨S1x768, .f32⟩
  | 91 => ⟨S40960x768, .f32⟩
  | 92 => ⟨S40960x768, .f32⟩
  | 93 => ⟨S256x768, .f32⟩
  | 94 => ⟨S40960x768, .f32⟩
  | 95 => ⟨S1x768, .f32⟩
  | 96 => ⟨S40960x768, .f32⟩
  | 97 => ⟨S40960x768, .f32⟩
  | 98 => ⟨S40960x256, .f32⟩
  | 99 => ⟨S40960x256, .f32⟩
  | 100 => ⟨S40960x256, .f32⟩
  | 101 => ⟨S40960x256, .f32⟩
  | 102 => ⟨S40960x256, .f32⟩
  | 103 => ⟨S40960x256, .f32⟩
  | 104 => ⟨S40960x256, .f32⟩
  | 105 => ⟨S40960x256, .f32⟩
  | 106 => ⟨S40960x256, .f32⟩
  | 107 => ⟨S_, .f32⟩
  | 108 => ⟨S40960x256, .f32⟩
  | 109 => ⟨S40960x256, .f32⟩
  | 110 => ⟨S_, .f32⟩
  | 111 => ⟨S40960x256, .f32⟩
  | 112 => ⟨S40960x256, .f32⟩
  | 113 => ⟨S40960x256, .f32⟩
  | 114 => ⟨S40960x256, .f32⟩
  | 115 => ⟨S40960x256, .f32⟩
  | 116 => ⟨S_, .f32⟩
  | 117 => ⟨S40960x256, .f32⟩
  | 118 => ⟨S40960x256, .f32⟩
  | 119 => ⟨S_, .f32⟩
  | 120 => ⟨S40960x256, .f32⟩
  | 121 => ⟨S40960x256, .f32⟩
  | 122 => ⟨S40960x256, .f32⟩
  | 123 => ⟨S40960x256, .f32⟩
  | 124 => ⟨S40960x256, .f32⟩
  | 125 => ⟨S_, .f32⟩
  | 126 => ⟨S40960x256, .f32⟩
  | 127 => ⟨S40960x256, .f32⟩
  | _ => ⟨S40960, .i32⟩

abbrev hbmTy0_2 (i : Nat) : BufTy := match i % 128 with
  | 0 => ⟨S40960x256, .f32⟩
  | 1 => ⟨S40960x256, .f32⟩
  | 2 => ⟨S40960x256, .f32⟩
  | 3 => ⟨S_, .f32⟩
  | 4 => ⟨S8192x256, .f32⟩
  | 5 => ⟨S40960x1, .i32⟩
  | 6 => ⟨S8192x256, .f32⟩
  | 7 => ⟨S_, .f32⟩
  | 8 => ⟨S40960, .f32⟩
  | 9 => ⟨S_, .f32⟩
  | 10 => ⟨S8192, .f32⟩
  | 11 => ⟨S40960x1, .i32⟩
  | 12 => ⟨S8192, .f32⟩
  | 13 => ⟨S_, .f32⟩
  | 14 => ⟨S8192, .f32⟩
  | 15 => ⟨S8192, .f32⟩
  | 16 => ⟨S8192x1, .f32⟩
  | 17 => ⟨S8192x256, .f32⟩
  | 18 => ⟨S8192x256, .f32⟩
  | 19 => ⟨S4096x256, .f32⟩
  | 20 => ⟨S4096x256, .f32⟩
  | 21 => ⟨S4096x256, .f32⟩
  | 22 => ⟨S_, .f32⟩
  | 23 => ⟨S4096, .f32⟩
  | 24 => ⟨S4096, .f32⟩
  | 25 => ⟨S4096, .f32⟩
  | 26 => ⟨S4096, .f32⟩
  | 27 => ⟨S_, .f32⟩
  | 28 => ⟨S4096, .f32⟩
  | 29 => ⟨S4096, .f32⟩
  | 30 => ⟨S_, .f32⟩
  | 31 => ⟨S4096, .f32⟩
  | 32 => ⟨S4096, .f32⟩
  | 33 => ⟨S4096x1, .f32⟩
  | _ => ⟨S40960, .i32⟩

abbrev hbmTy (i : Nat) : BufTy := match i / 128 with
  | 0 => hbmTy0_0 i
  | 1 => hbmTy0_1 i
  | 2 => hbmTy0_2 i
  | _ => ⟨S40960, .i32⟩

abbrev bufTy : (tb : Table) → Fin (tcTables nBuf tb) → BufTy
  | .hbm, ⟨i, _⟩ => hbmTy i
  | _, _ => ⟨S40960, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call0_cst : Ref sig .tc := ⟨.hbm, 67, rfl⟩
abbrev main_call0_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_11 : Ref sig .tc := ⟨.hbm, 95, rfl⟩
abbrev main_v64 : Ref sig .tc := ⟨.hbm, 96, rfl⟩
abbrev main_v65 : Ref sig .tc := ⟨.hbm, 97, rfl⟩
abbrev main_c_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_c_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_16 : Ref sig .tc := ⟨.hbm, 118, rfl⟩
abbrev main_v82 : Ref sig .tc := ⟨.hbm, 119, rfl⟩
abbrev main_cst_17 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_18 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_19 : Ref sig .tc := ⟨.hbm, 149, rfl⟩
abbrev main_v110 : Ref sig .tc := ⟨.hbm, 150, rfl⟩
abbrev main_v111 : Ref sig .tc := ⟨.hbm, 151, rfl⟩
abbrev main_cst_20 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_21 : Ref sig .tc := ⟨.hbm, 158, rfl⟩
abbrev main_v117 : Ref sig .tc := ⟨.hbm, 159, rfl⟩
abbrev main_v118 : Ref sig .tc := ⟨.hbm, 160, rfl⟩
abbrev main_cst_22 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_23 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_24 : Ref sig .tc := ⟨.hbm, 192, rfl⟩
abbrev main_v148 : Ref sig .tc := ⟨.hbm, 193, rfl⟩
abbrev main_v149 : Ref sig .tc := ⟨.hbm, 194, rfl⟩
abbrev main_cst_25 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_26 : Ref sig .tc := ⟨.hbm, 201, rfl⟩
abbrev main_v155 : Ref sig .tc := ⟨.hbm, 202, rfl⟩
abbrev main_v156 : Ref sig .tc := ⟨.hbm, 203, rfl⟩
abbrev main_cst_27 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_cst_28 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_cst_29 : Ref sig .tc := ⟨.hbm, 235, rfl⟩
abbrev main_v186 : Ref sig .tc := ⟨.hbm, 236, rfl⟩
abbrev main_v187 : Ref sig .tc := ⟨.hbm, 237, rfl⟩
abbrev main_cst_30 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_cst_31 : Ref sig .tc := ⟨.hbm, 244, rfl⟩
abbrev main_v193 : Ref sig .tc := ⟨.hbm, 245, rfl⟩
abbrev main_v194 : Ref sig .tc := ⟨.hbm, 246, rfl⟩
abbrev main_cst_32 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_cst_33 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_cst_34 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_cst_35 : Ref sig .tc := ⟨.hbm, 263, rfl⟩
abbrev main_v208 : Ref sig .tc := ⟨.hbm, 264, rfl⟩
abbrev main_cst_36 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_cst_37 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_cst_38 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_cst_39 : Ref sig .tc := ⟨.hbm, 283, rfl⟩
abbrev main_v224 : Ref sig .tc := ⟨.hbm, 284, rfl⟩
abbrev main_v225 : Ref sig .tc := ⟨.hbm, 285, rfl⟩
abbrev main_cst_40 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩

abbrev nD : Nat := 1
abbrev τ : Topo := Topo.v7x

variable {F : FTy → Type} [FloatOps F]

class Facts₀ : Prop where
  bcast_S_S40960 : S_.BroadcastsInDim S40960 (![] : Fin 0 → Fin S40960.rank)
  bcast_S40960_S40960x1_0 : S40960.BroadcastsInDim S40960x1 (![0] : Fin 1 → Fin S40960x1.rank)
  shapeCasts_S40960x1_S40960 : S40960x1.ShapeCasts S40960
  bcast_S_S4096 : S_.BroadcastsInDim S4096 (![] : Fin 0 → Fin S4096.rank)
  slices_S2x172032_S1x172032_0_0 : S2x172032.Slices ![0, 0] S1x172032
  shapeCasts_S1x172032_S172032 : S1x172032.ShapeCasts S172032
  slices_S2x172032_S1x172032_1_0 : S2x172032.Slices ![1, 0] S1x172032
  bcast_S_S172032 : S_.BroadcastsInDim S172032 (![] : Fin 0 → Fin S172032.rank)
  bcast_S172032_S172032x1_0 : S172032.BroadcastsInDim S172032x1 (![0] : Fin 1 → Fin S172032x1.rank)
  transposes_S1024x256_S256x1024_1_0 : S1024x256.Transposes [1, 0] S256x1024
  bcast_S1024_S1x1024_1 : S1024.BroadcastsInDim S1x1024 (![1] : Fin 1 → Fin S1x1024.rank)
  bcast_S1x1024_S172032x1024_0_1 : S1x1024.BroadcastsInDim S172032x1024 (![0, 1] : Fin 2 → Fin S172032x1024.rank)
  bcast_S_S172032x1024 : S_.BroadcastsInDim S172032x1024 (![] : Fin 0 → Fin S172032x1024.rank)
  transposes_S256x1024_S1024x256_1_0 : S256x1024.Transposes [1, 0] S1024x256
  bcast_S256_S1x256_1 : S256.BroadcastsInDim S1x256 (![1] : Fin 1 → Fin S1x256.rank)
  bcast_S1x256_S172032x256_0_1 : S1x256.BroadcastsInDim S172032x256 (![0, 1] : Fin 2 → Fin S172032x256.rank)
  bcast_S_S40960x256 : S_.BroadcastsInDim S40960x256 (![] : Fin 0 → Fin S40960x256.rank)
  bcast_S40960x1_S40960x256_0_1 : S40960x1.BroadcastsInDim S40960x256 (![0, 1] : Fin 2 → Fin S40960x256.rank)
  slices_S2x196608_S1x196608_0_0 : S2x196608.Slices ![0, 0] S1x196608
  shapeCasts_S1x196608_S196608 : S1x196608.ShapeCasts S196608
  slices_S2x196608_S1x196608_1_0 : S2x196608.Slices ![1, 0] S1x196608
  bcast_S_S196608 : S_.BroadcastsInDim S196608 (![] : Fin 0 → Fin S196608.rank)
  bcast_S196608_S196608x1_0 : S196608.BroadcastsInDim S196608x1 (![0] : Fin 1 → Fin S196608x1.rank)
  transposes_S768x256_S256x768_1_0 : S768x256.Transposes [1, 0] S256x768
  bcast_S768_S1x768_1 : S768.BroadcastsInDim S1x768 (![1] : Fin 1 → Fin S1x768.rank)
  bcast_S1x768_S40960x768_0_1 : S1x768.BroadcastsInDim S40960x768 (![0, 1] : Fin 2 → Fin S40960x768.rank)
  slices_S40960x768_S40960x256_0_0 : S40960x768.Slices ![0, 0] S40960x256
  slices_S40960x768_S40960x256_0_256 : S40960x768.Slices ![0, 256] S40960x256
  slices_S40960x768_S40960x256_0_512 : S40960x768.Slices ![0, 512] S40960x256
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  h_S_ : 0 < S_.numel
  bcast_S4096_S4096x1_0 : S4096.BroadcastsInDim S4096x1 (![0] : Fin 1 → Fin S4096x1.rank)
  gather_S100001x1_S40960x1_S40960x1_1_0_n_n_0_1_11_wf : GatherDims.WF S100001x1 S40960x1 S40960x1 [1] [0] [] [0] [] 1 ![1, 1]
  scatter_S4096_S40960x1_S40960_n_0_0_1_wf : ScatterDims.WF S4096 S40960x1 S40960 [] [0] [0] 1
  gather_S100001x256_S40960x1_S40960x256_1_0_n_n_0_1_1256_wf : GatherDims.WF S100001x256 S40960x1 S40960x256 [1] [0] [] [0] [] 1 ![1, 256]
  gather_S40960x256_S172032x1_S172032x256_1_0_n_n_0_1_1256_wf : GatherDims.WF S40960x256 S172032x1 S172032x256 [1] [0] [] [0] [] 1 ![1, 256]
  dot_S172032x256_S256x1024_S172032x1024_1_0_0_1_n_n_wf : DotDims.WF S172032x256 S256x1024 S172032x1024 [1] [0] [0] [1] [] []
  dot_S172032x1024_S1024x256_S172032x256_1_0_0_1_n_n_wf : DotDims.WF S172032x1024 S1024x256 S172032x256 [1] [0] [0] [1] [] []
  scatter_S40960x256_S172032x1_S172032x256_1_0_0_1_wf : ScatterDims.WF S40960x256 S172032x1 S172032x256 [1] [0] [0] 1
  scatter_S40960_S172032x1_S172032_n_0_0_1_wf : ScatterDims.WF S40960 S172032x1 S172032 [] [0] [0] 1
  gather_S40960x256_S196608x1_S196608x256_1_0_n_n_0_1_1256_wf : GatherDims.WF S40960x256 S196608x1 S196608x256 [1] [0] [] [0] [] 1 ![1, 256]
  scatter_S40960x256_S196608x1_S196608x256_1_0_0_1_wf : ScatterDims.WF S40960x256 S196608x1 S196608x256 [1] [0] [0] 1
  scatter_S40960_S196608x1_S196608_n_0_0_1_wf : ScatterDims.WF S40960 S196608x1 S196608 [] [0] [0] 1
  dot_S40960x256_S256x768_S40960x768_1_0_0_1_n_n_wf : DotDims.WF S40960x256 S256x768 S40960x768 [1] [0] [0] [1] [] []
  scatter_S8192x256_S40960x1_S40960x256_1_0_0_1_wf : ScatterDims.WF S8192x256 S40960x1 S40960x256 [1] [0] [0] 1
  scatter_S8192_S40960x1_S40960_n_0_0_1_wf : ScatterDims.WF S8192 S40960x1 S40960 [] [0] [0] 1

variable [Facts₀]

def gather_S100001x1_S40960x1_S40960x1_1_0_n_n_0_1_11 : GatherDims S100001x1 S40960x1 S40960x1 where
  offsetDims := [1]
  collapsedSliceDims := [0]
  operandBatchingDims := []
  startIndicesBatchingDims := []
  startIndexMap := [0]
  indexVectorDim := 1
  sliceSizes := ![1, 1]
  wf := gather_S100001x1_S40960x1_S40960x1_1_0_n_n_0_1_11_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def gather_S100001x256_S40960x1_S40960x256_1_0_n_n_0_1_1256 : GatherDims S100001x256 S40960x1 S40960x256 where
  offsetDims := [1]
  collapsedSliceDims := [0]
  operandBatchingDims := []
  startIndicesBatchingDims := []
  startIndexMap := [0]
  indexVectorDim := 1
  sliceSizes := ![1, 256]
  wf := gather_S100001x256_S40960x1_S40960x256_1_0_n_n_0_1_1256_wf
def gather_S40960x256_S172032x1_S172032x256_1_0_n_n_0_1_1256 : GatherDims S40960x256 S172032x1 S172032x256 where
  offsetDims := [1]
  collapsedSliceDims := [0]
  operandBatchingDims := []
  startIndicesBatchingDims := []
  startIndexMap := [0]
  indexVectorDim := 1
  sliceSizes := ![1, 256]
  wf := gather_S40960x256_S172032x1_S172032x256_1_0_n_n_0_1_1256_wf
def dot_S172032x256_S256x1024_S172032x1024_1_0_0_1_n_n : DotDims S172032x256 S256x1024 S172032x1024 where
  lhsContracting := [1]
  rhsContracting := [0]
  lhsNonContracting := [0]
  rhsNonContracting := [1]
  lhsBatch := []
  rhsBatch := []
  wf := dot_S172032x256_S256x1024_S172032x1024_1_0_0_1_n_n_wf
def dot_S172032x1024_S1024x256_S172032x256_1_0_0_1_n_n : DotDims S172032x1024 S1024x256 S172032x256 where
  lhsContracting := [1]
  rhsContracting := [0]
  lhsNonContracting := [0]
  rhsNonContracting := [1]
  lhsBatch := []
  rhsBatch := []
  wf := dot_S172032x1024_S1024x256_S172032x256_1_0_0_1_n_n_wf
def scatter_S40960x256_S172032x1_S172032x256_1_0_0_1 : ScatterDims S40960x256 S172032x1 S172032x256 where
  updateWindowDims := [1]
  insertedWindowDims := [0]
  scatterDimsToOperandDims := [0]
  indexVectorDim := 1
  wf := scatter_S40960x256_S172032x1_S172032x256_1_0_0_1_wf
def scatter_S40960_S172032x1_S172032_n_0_0_1 : ScatterDims S40960 S172032x1 S172032 where
  updateWindowDims := []
  insertedWindowDims := [0]
  scatterDimsToOperandDims := [0]
  indexVectorDim := 1
  wf := scatter_S40960_S172032x1_S172032_n_0_0_1_wf
def gather_S40960x256_S196608x1_S196608x256_1_0_n_n_0_1_1256 : GatherDims S40960x256 S196608x1 S196608x256 where
  offsetDims := [1]
  collapsedSliceDims := [0]
  operandBatchingDims := []
  startIndicesBatchingDims := []
  startIndexMap := [0]
  indexVectorDim := 1
  sliceSizes := ![1, 256]
  wf := gather_S40960x256_S196608x1_S196608x256_1_0_n_n_0_1_1256_wf
def scatter_S40960x256_S196608x1_S196608x256_1_0_0_1 : ScatterDims S40960x256 S196608x1 S196608x256 where
  updateWindowDims := [1]
  insertedWindowDims := [0]
  scatterDimsToOperandDims := [0]
  indexVectorDim := 1
  wf := scatter_S40960x256_S196608x1_S196608x256_1_0_0_1_wf
def scatter_S40960_S196608x1_S196608_n_0_0_1 : ScatterDims S40960 S196608x1 S196608 where
  updateWindowDims := []
  insertedWindowDims := [0]
  scatterDimsToOperandDims := [0]
  indexVectorDim := 1
  wf := scatter_S40960_S196608x1_S196608_n_0_0_1_wf
def dot_S40960x256_S256x768_S40960x768_1_0_0_1_n_n : DotDims S40960x256 S256x768 S40960x768 where
  lhsContracting := [1]
  rhsContracting := [0]
  lhsNonContracting := [0]
  rhsNonContracting := [1]
  lhsBatch := []
  rhsBatch := []
  wf := dot_S40960x256_S256x768_S40960x768_1_0_0_1_n_n_wf
def scatter_S8192x256_S40960x1_S40960x256_1_0_0_1 : ScatterDims S8192x256 S40960x1 S40960x256 where
  updateWindowDims := [1]
  insertedWindowDims := [0]
  scatterDimsToOperandDims := [0]
  indexVectorDim := 1
  wf := scatter_S8192x256_S40960x1_S40960x256_1_0_0_1_wf
def scatter_S8192_S40960x1_S40960_n_0_0_1 : ScatterDims S8192 S40960x1 S40960 where
  updateWindowDims := []
  insertedWindowDims := [0]
  scatterDimsToOperandDims := [0]
  indexVectorDim := 1
  wf := scatter_S8192_S40960x1_S40960_n_0_0_1_wf

class Facts : Prop extends Facts₀ where

variable [Facts]
-- ==== Proof.KernelRun.lean ====
/-
  The idealized kernel's run with its result named.

  @main is five segments: a stretch of host operations, the message layers' region, a second stretch, the
  recurrent cell's region, a last stretch. The buffer contents at each boundary are a fold from the launch memory:
  a stretch applies its operations; a region leaves each of its arrays at what its grid points wrote back and every
  other buffer as it found it. Every weakly fair execution terminates with every buffer the thread holds at the last
  boundary's contents; so the result buffer ends at the last boundary's contents there, and each argument array as
  launched.
-/
import proofs.«131273_j42004780155451_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and every argument array as launched. -/
theorem run_named : θ_run defs (onTc (τ := τ) (main (F := F))) ⟨m, fun _ => 0, ρ⟩ (fun r => ∀ c : Dev nD,
      r.2.mem ((c.tc : Thread nD τ).loc main_v113) = W5 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v113 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩)

end Cert.KernelIdeal.Named

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«131273_j42004780155451_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibAffineRows.lean ====
/-
  Rows of an array through dense layers, on the extended reals.

  addVec M b adds a vector of l entries to every row of an n×l array; affine X W b is the product of an n×k array
  with a k×l array plus such a vector; clampZero joins every entry with the zero word; mlp is two affine layers with
  the clamp between them. Each is a function of whole arrays, for any number n of rows.

  An entry of any of these depends on ONE row of X: if row (y 0) of X' is row (i 0) of X, and y and i have the same
  column, the layer of X' at y is the layer of X at i. So a block of consecutive rows of X, put through the layers,
  is the same block of rows of the layers of the whole X. Only the sums' terms are compared, so nothing is asked
  to be finite.

  Two spellings of affine are read here once: a kernel body's (a product accumulated into zeros, the vector
  re-shaped to one row and stretched down the rows, added) and a host program's (dot_general, the vector broadcast to
  one row and then down the rows, added); and the two spellings of the clamp (a splat zero; a broadcast zero
  constant). Nothing here mentions a program.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«131273_j42004780155451_1_alg».proof.Proof.LibMatProd

open scoped BigOperators

noncomputable section

namespace Cert.Lib.AffineRows

open Idealize.ShloMosaic Idealize.ShloMosaic.ValueIdx Cert.Lib.MatProd

variable {n n' k l h : Nat}

/-- A vector of l entries added to every row of an n×l array. -/
def addVec (M : (⟨2, ![n, l]⟩ : Shape).Idx → EReal) (b : (⟨1, ![l]⟩ : Shape).Idx → EReal) :
    (⟨2, ![n, l]⟩ : Shape).Idx → EReal :=
  fun i => M i + b (ix1 (i 1))

/-- X·W plus the vector b on every row. -/
def affine (X : (⟨2, ![n, k]⟩ : Shape).Idx → EReal) (W : (⟨2, ![k, l]⟩ : Shape).Idx → EReal)
    (b : (⟨1, ![l]⟩ : Shape).Idx → EReal) : (⟨2, ![n, l]⟩ : Shape).Idx → EReal :=
  addVec (matProd X W) b

theorem affine_apply (X : (⟨2, ![n, k]⟩ : Shape).Idx → EReal) (W : (⟨2, ![k, l]⟩ : Shape).Idx → EReal)
    (b : (⟨1, ![l]⟩ : Shape).Idx → EReal) (p : Fin n) (q : Fin l) :
    affine X W b (ix2 p q) = (∑ c : Fin k, X (ix2 p c) * W (ix2 c q)) + b (ix1 q) := rfl

/-- Every entry joined with the zero word. -/
def clampZero {s : Shape} (M : s.Idx → EReal) : s.Idx → EReal :=
  fun i => max (M i) (Ideal.ofBits .f32 0x00000000#32)

/-- Two affine layers with the clamp between them. -/
def mlp (X : (⟨2, ![n, k]⟩ : Shape).Idx → EReal) (W₁ : (⟨2, ![k, h]⟩ : Shape).Idx → EReal)
    (b₁ : (⟨1, ![h]⟩ : Shape).Idx → EReal) (W₂ : (⟨2, ![h, l]⟩ : Shape).Idx → EReal)
    (b₂ : (⟨1, ![l]⟩ : Shape).Idx → EReal) : (⟨2, ![n, l]⟩ : Shape).Idx → EReal :=
  affine (clampZero (affine X W₁ b₁)) W₂ b₂

/-! ## An entry depends on one row -/

/-- If row (y 0) of X' is row (i 0) of X and y, i have the same column, affine of X' at y is affine of X at i. -/
theorem affine_rows (X : (⟨2, ![n, k]⟩ : Shape).Idx → EReal) (X' : (⟨2, ![n', k]⟩ : Shape).Idx → EReal)
    (W : (⟨2, ![k, l]⟩ : Shape).Idx → EReal) (b : (⟨1, ![l]⟩ : Shape).Idx → EReal)
    (y : (⟨2, ![n', l]⟩ : Shape).Idx) (i : (⟨2, ![n, l]⟩ : Shape).Idx)
    (hrow : ∀ c : Fin k, X' (ix2 (y 0) c) = X (ix2 (i 0) c)) (hcol : (y 1).val = (i 1).val) :
    affine X' W b y = affine X W b i := by
  obtain ⟨p, q, rfl⟩ : ∃ (p : Fin n') (q : Fin l), y = ix2 p q := ⟨y 0, y 1, eq_ix2 y⟩
  obtain ⟨r, s, rfl⟩ : ∃ (r : Fin n) (s : Fin l), i = ix2 r s := ⟨i 0, i 1, eq_ix2 i⟩
  have hqs : q = s := Fin.ext hcol
  subst hqs
  rw [affine_apply, affine_apply]
  exact congrArg (· + b (ix1 q)) (Finset.sum_congr rfl fun c _ => by rw [show X' (ix2 p c) = X (ix2 r c) from hrow c])

/-- The same for the two layers. -/
theorem mlp_rows (X : (⟨2, ![n, k]⟩ : Shape).Idx → EReal) (X' : (⟨2, ![n', k]⟩ : Shape).Idx → EReal)
    (W₁ : (⟨2, ![k, h]⟩ : Shape).Idx → EReal) (b₁ : (⟨1, ![h]⟩ : Shape).Idx → EReal)
    (W₂ : (⟨2, ![h, l]⟩ : Shape).Idx → EReal) (b₂ : (⟨1, ![l]⟩ : Shape).Idx → EReal)
    (y : (⟨2, ![n', l]⟩ : Shape).Idx) (i : (⟨2, ![n, l]⟩ : Shape).Idx)
    (hrow : ∀ c : Fin k, X' (ix2 (y 0) c) = X (ix2 (i 0) c)) (hcol : (y 1).val = (i 1).val) :
    mlp X' W₁ b₁ W₂ b₂ y = mlp X W₁ b₁ W₂ b₂ i := by
  unfold mlp
  refine affine_rows _ _ W₂ b₂ y i (fun c => ?_) hcol
  exact congrArg (fun v => max v (Ideal.ofBits .f32 0x00000000#32))
    (affine_rows X X' W₁ b₁ (ix2 (y 0) c) (ix2 (i 0) c) hrow rfl)

/-! ## The two spellings -/

/-- A change of float format is the identity on the extended reals. -/
theorem truncf_eq {s : Shape} {φ ψ : FTy} (a : FVec Ideal s φ) (hb : ψ.bits < φ.bits) :
    (truncf ψ a hb : s.Idx → EReal) = a := rfl

/-- A kernel body's affine layer: the product into zeros, the vector as one row stretched down the rows, added. -/
theorem body_affine {φ₁ φ₂ : FTy} (d : DotDims ⟨2, ![n, k]⟩ ⟨2, ![k, l]⟩ ⟨2, ![n, l]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![n, k]⟩ φ₁) (W : FVec Ideal ⟨2, ![k, l]⟩ φ₂) (b : FVec Ideal ⟨1, ![l]⟩ .f32)
    (h1 : (⟨1, ![l]⟩ : Shape).ShapeCasts ⟨2, ![1, l]⟩) (hb : (⟨2, ![1, l]⟩ : Shape).Broadcasts ⟨2, ![n, l]⟩) :
    addf (matmul d none X W (constant ⟨2, ![n, l]⟩ .f32 0x00000000#32))
        (broadcastTo ⟨2, ![n, l]⟩ (shapeCast ⟨2, ![1, l]⟩ b h1) hb) = affine X W b := by
  rw [matmul_zero_eq_matProd d hlc hrc hln hrn hlb hrb]
  funext i
  obtain ⟨p, q, rfl⟩ : ∃ (p : Fin n) (q : Fin l), i = ix2 p q := ⟨i 0, i 1, eq_ix2 i⟩
  show matProd X W (ix2 p q) + broadcastTo ⟨2, ![n, l]⟩ (shapeCast ⟨2, ![1, l]⟩ b h1) hb (ix2 p q) = _
  rw [broadcastTo_1b_ab_apply, shapeCast_a_1a_apply]
  rfl

/-- A host program's affine layer: dot_general, the vector broadcast to one row and then down the rows, added. -/
theorem host_affine {φ₁ φ₂ : FTy} (d : DotDims ⟨2, ![n, k]⟩ ⟨2, ![k, l]⟩ ⟨2, ![n, l]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![n, k]⟩ φ₁) (W : FVec Ideal ⟨2, ![k, l]⟩ φ₂) (b : FVec Ideal ⟨1, ![l]⟩ .f32)
    (h1 : (⟨1, ![l]⟩ : Shape).BroadcastsInDim ⟨2, ![1, l]⟩ ![1])
    (h2 : (⟨2, ![1, l]⟩ : Shape).BroadcastsInDim ⟨2, ![n, l]⟩ ![0, 1]) :
    addf (Host.dotGeneral d none X W)
        (broadcastInDim ⟨2, ![n, l]⟩ ![0, 1] h2 (broadcastInDim ⟨2, ![1, l]⟩ ![1] h1 b)) = affine X W b := by
  rw [show Host.dotGeneral d none X W = matProd X W from
    dotGeneral_eq_matProd d hlc hrc hln hrn hlb hrb none .single X W]
  funext i
  obtain ⟨p, q, rfl⟩ : ∃ (p : Fin n) (q : Fin l), i = ix2 p q := ⟨i 0, i 1, eq_ix2 i⟩
  show matProd X W (ix2 p q)
    + broadcastInDim ⟨2, ![n, l]⟩ ![0, 1] h2 (broadcastInDim ⟨2, ![1, l]⟩ ![1] h1 b) (ix2 p q) = _
  rw [broadcastInDim_apply ![0, 1] h2 _ (ix2 p q) (ix2 (0 : Fin 1) q) (fun a => by
      match a with
      | ⟨0, _⟩ => rfl
      | ⟨1, _⟩ =>
        show q.val = if l = 1 then 0 else q.val
        split_ifs with hl
        · have := q.isLt; omega
        · rfl),
    broadcastInDim_apply ![1] h1 b (ix2 (0 : Fin 1) q) (ix1 q) (fun a => by
      match a with
      | ⟨0, _⟩ =>
        show q.val = if l = 1 then 0 else q.val
        split_ifs with hl
        · have := q.isLt; omega
        · rfl)]
  rfl

/-- A kernel body's clamp: the larger of each entry and a splat zero. -/
theorem body_clamp {s : Shape} (M : FVec Ideal s .f32) :
    maximumf M (broadcast s (Scalar.ofBits .f32 0x00000000#32)) = clampZero M := rfl

/-- A host program's clamp: the larger of each entry and a zero constant broadcast to the shape. -/
theorem host_clamp {s : Shape} (M : FVec Ideal s .f32) (hz : (⟨0, ![]⟩ : Shape).BroadcastsInDim s ![]) :
    maximumf M (broadcastInDim s ![] hz (constant (F := Ideal) ⟨0, ![]⟩ .f32 0x00000000#32)) = clampZero M := by
  funext i
  show max (M i) (broadcastInDim s ![] hz (constant (F := Ideal) ⟨0, ![]⟩ .f32 0x00000000#32) i) = _
  rw [broadcastInDim_scalar_apply]
  rfl

end Cert.Lib.AffineRows

end
-- ==== Proof.LibGruCell.lean ====
/-
  One step of a gated recurrent cell, on the extended reals, as a function of whole arrays.

  The two pre-activation arrays gi = X·Wi + bi and gh = H·Wh + bh have g = 3·d columns: three bands of d columns,
  for the reset gate, the update gate and the candidate. With σ the logistic function,
      r = σ(gi₀ + gh₀),   z = σ(gi₁ + gh₁),   c = tanh(gi₂ + r · gh₂),   new H = (1 − z) · c + z · H,
  entry by entry, band j of an array read at column j·d + q. gruCell is this function of gi, gh and H; gruStep puts
  the two affine layers in front. Both are stated for any number n of rows.

  An entry of the new state depends on ONE row of X and of H (gruStep_rows), so a block of consecutive rows put
  through a step is the same block of rows of the step of the whole arrays; nothing is asked to be finite, the two
  sides being the same expression of equal entries.

  A kernel body spells the gates with the logistic operation and a splat one (body_cell); a host program spells the
  logistic function as 1 / (1 + exp (−v)) with ones broadcast from a constant (host_cell). On the extended reals the
  logistic function IS that quotient, so both spellings are gruCell. Nothing here mentions a program.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«131273_j42004780155451_1_alg».proof.Proof.LibAffineRows

open scoped BigOperators

noncomputable section

namespace Cert.Lib.GruCell

open Idealize.ShloMosaic Idealize.ShloMosaic.ValueIdx Cert.Lib.MatProd Cert.Lib.AffineRows

variable {n n' k d g : Nat}

/-- Column q of band 0, 1, 2 of an array of g = 3·d columns. -/
def col0 (hg : g = 3 * d) (q : Fin d) : Fin g := ⟨q.val, by have := q.isLt; omega⟩
def col1 (hg : g = 3 * d) (q : Fin d) : Fin g := ⟨d + q.val, by have := q.isLt; omega⟩
def col2 (hg : g = 3 * d) (q : Fin d) : Fin g := ⟨d + d + q.val, by have := q.isLt; omega⟩

/-- The word of the float one. -/
abbrev one : EReal := Ideal.ofBits .f32 0x3F800000#32

/-- The gates and the blend, entry by entry, from the two pre-activation arrays and the old state. -/
def gruCell (hg : g = 3 * d) (gi gh : (⟨2, ![n, g]⟩ : Shape).Idx → EReal) (H : (⟨2, ![n, d]⟩ : Shape).Idx → EReal) :
    (⟨2, ![n, d]⟩ : Shape).Idx → EReal :=
  fun i =>
    (one - Ideal.logistic (gi (ix2 (i 0) (col1 hg (i 1))) + gh (ix2 (i 0) (col1 hg (i 1)))))
        * Ideal.tanh (gi (ix2 (i 0) (col2 hg (i 1)))
            + Ideal.logistic (gi (ix2 (i 0) (col0 hg (i 1))) + gh (ix2 (i 0) (col0 hg (i 1))))
              * gh (ix2 (i 0) (col2 hg (i 1))))
      + Ideal.logistic (gi (ix2 (i 0) (col1 hg (i 1))) + gh (ix2 (i 0) (col1 hg (i 1)))) * H i

/-- One step: the affine layers of the input and of the old state, then the gates. -/
def gruStep (hg : g = 3 * d) (X : (⟨2, ![n, k]⟩ : Shape).Idx → EReal) (H : (⟨2, ![n, d]⟩ : Shape).Idx → EReal)
    (Wi : (⟨2, ![k, g]⟩ : Shape).Idx → EReal) (Wh : (⟨2, ![d, g]⟩ : Shape).Idx → EReal)
    (bi bh : (⟨1, ![g]⟩ : Shape).Idx → EReal) : (⟨2, ![n, d]⟩ : Shape).Idx → EReal :=
  gruCell hg (affine X Wi bi) (affine H Wh bh) H

/-! ## An entry depends on one row -/

/-- If the gate arrays and the state agree on row (y 0) of the primed arrays and row (i 0) of the others, and y, i
    have the same column, the cells agree there. -/
theorem gruCell_rows (hg : g = 3 * d) (gi gh : (⟨2, ![n, g]⟩ : Shape).Idx → EReal)
    (H : (⟨2, ![n, d]⟩ : Shape).Idx → EReal) (gi' gh' : (⟨2, ![n', g]⟩ : Shape).Idx → EReal)
    (H' : (⟨2, ![n', d]⟩ : Shape).Idx → EReal) (y : (⟨2, ![n', d]⟩ : Shape).Idx) (i : (⟨2, ![n, d]⟩ : Shape).Idx)
    (hgi : ∀ c : Fin g, gi' (ix2 (y 0) c) = gi (ix2 (i 0) c)) (hgh : ∀ c : Fin g, gh' (ix2 (y 0) c) = gh (ix2 (i 0) c))
    (hH : H' y = H i) (hcol : (y 1 : Fin d) = (i 1 : Fin d)) :
    gruCell hg gi' gh' H' y = gruCell hg gi gh H i := by
  unfold gruCell
  simp only [hgi, hgh, hH, hcol]

/-- If row (y 0) of X' and H' is row (i 0) of X and H, and y, i have the same column, a step of the primed arrays
    at y is the step of the others at i. -/
theorem gruStep_rows (hg : g = 3 * d) (X : (⟨2, ![n, k]⟩ : Shape).Idx → EReal) (H : (⟨2, ![n, d]⟩ : Shape).Idx → EReal)
    (X' : (⟨2, ![n', k]⟩ : Shape).Idx → EReal) (H' : (⟨2, ![n', d]⟩ : Shape).Idx → EReal)
    (Wi : (⟨2, ![k, g]⟩ : Shape).Idx → EReal) (Wh : (⟨2, ![d, g]⟩ : Shape).Idx → EReal)
    (bi bh : (⟨1, ![g]⟩ : Shape).Idx → EReal) (y : (⟨2, ![n', d]⟩ : Shape).Idx) (i : (⟨2, ![n, d]⟩ : Shape).Idx)
    (hX : ∀ c : Fin k, X' (ix2 (y 0) c) = X (ix2 (i 0) c)) (hH : ∀ c : Fin d, H' (ix2 (y 0) c) = H (ix2 (i 0) c))
    (hcol : (y 1 : Fin d) = (i 1 : Fin d)) :
    gruStep hg X' H' Wi Wh bi bh y = gruStep hg X H Wi Wh bi bh i := by
  obtain ⟨p, q, rfl⟩ : ∃ (p : Fin n') (q : Fin d), y = ix2 p q := ⟨y 0, y 1, eq_ix2 y⟩
  obtain ⟨r, s, rfl⟩ : ∃ (r : Fin n) (s : Fin d), i = ix2 r s := ⟨i 0, i 1, eq_ix2 i⟩
  have hqs : q = s := hcol
  subst hqs
  unfold gruStep
  refine gruCell_rows hg _ _ H _ _ H' (ix2 p q) (ix2 r q) (fun c => ?_) (fun c => ?_) (hH q) rfl
  · exact affine_rows X X' Wi bi (ix2 p c) (ix2 r c) hX rfl
  · exact affine_rows H H' Wh bh (ix2 p c) (ix2 r c) hH rfl

/-- Three steps with the same weights, fed X, then I, then O, starting from the state H. -/
def gru3 (hg : g = 3 * d) (X I O : (⟨2, ![n, k]⟩ : Shape).Idx → EReal) (H : (⟨2, ![n, d]⟩ : Shape).Idx → EReal)
    (Wi : (⟨2, ![k, g]⟩ : Shape).Idx → EReal) (Wh : (⟨2, ![d, g]⟩ : Shape).Idx → EReal)
    (bi bh : (⟨1, ![g]⟩ : Shape).Idx → EReal) : (⟨2, ![n, d]⟩ : Shape).Idx → EReal :=
  gruStep hg O (gruStep hg I (gruStep hg X H Wi Wh bi bh) Wi Wh bi bh) Wi Wh bi bh

/-- An entry of the three steps depends on one row of each of the four arrays. -/
theorem gru3_rows (hg : g = 3 * d) (X I O : (⟨2, ![n, k]⟩ : Shape).Idx → EReal) (H : (⟨2, ![n, d]⟩ : Shape).Idx → EReal)
    (X' I' O' : (⟨2, ![n', k]⟩ : Shape).Idx → EReal) (H' : (⟨2, ![n', d]⟩ : Shape).Idx → EReal)
    (Wi : (⟨2, ![k, g]⟩ : Shape).Idx → EReal) (Wh : (⟨2, ![d, g]⟩ : Shape).Idx → EReal)
    (bi bh : (⟨1, ![g]⟩ : Shape).Idx → EReal) (y : (⟨2, ![n', d]⟩ : Shape).Idx) (i : (⟨2, ![n, d]⟩ : Shape).Idx)
    (hX : ∀ c : Fin k, X' (ix2 (y 0) c) = X (ix2 (i 0) c)) (hI : ∀ c : Fin k, I' (ix2 (y 0) c) = I (ix2 (i 0) c))
    (hO : ∀ c : Fin k, O' (ix2 (y 0) c) = O (ix2 (i 0) c)) (hH : ∀ c : Fin d, H' (ix2 (y 0) c) = H (ix2 (i 0) c))
    (hcol : (y 1 : Fin d) = (i 1 : Fin d)) :
    gru3 hg X' I' O' H' Wi Wh bi bh y = gru3 hg X I O H Wi Wh bi bh i := by
  unfold gru3
  refine gruStep_rows hg _ _ _ _ Wi Wh bi bh y i hO (fun c => ?_) hcol
  refine gruStep_rows hg _ _ _ _ Wi Wh bi bh (ix2 (y 0) c) (ix2 (i 0) c) hI (fun c' => ?_) rfl
  exact gruStep_rows hg _ _ _ _ Wi Wh bi bh (ix2 (y 0) c') (ix2 (i 0) c') hX hH rfl

/-! ## The two spellings of the gates -/

/-- A kernel body's gates: bands cut out by unit-stride slices at columns 0, o₁ = d, o₂ = 2·d; the logistic
    operation; a splat one. -/
theorem body_cell (hg : g = 3 * d) (o₁ o₂ : Nat) (ho₁ : o₁ = d) (ho₂ : o₂ = d + d)
    (gi gh : FVec Ideal ⟨2, ![n, g]⟩ .f32) (H : FVec Ideal ⟨2, ![n, d]⟩ .f32)
    (s0 : (⟨2, ![n, g]⟩ : Shape).Slices ![0, 0] ⟨2, ![n, d]⟩)
    (s1 : (⟨2, ![n, g]⟩ : Shape).Slices ![0, o₁] ⟨2, ![n, d]⟩)
    (s2 : (⟨2, ![n, g]⟩ : Shape).Slices ![0, o₂] ⟨2, ![n, d]⟩) :
    addf
      (mulf
        (subf (broadcast ⟨2, ![n, d]⟩ (Scalar.ofBits .f32 0x3F800000#32))
          (logistic (addf (extractStridedSlice ⟨2, ![n, d]⟩ ![0, o₁] gi s1) (extractStridedSlice ⟨2, ![n, d]⟩ ![0, o₁] gh s1))))
        (tanh (addf (extractStridedSlice ⟨2, ![n, d]⟩ ![0, o₂] gi s2)
          (mulf (logistic (addf (extractStridedSlice ⟨2, ![n, d]⟩ ![0, 0] gi s0) (extractStridedSlice ⟨2, ![n, d]⟩ ![0, 0] gh s0)))
            (extractStridedSlice ⟨2, ![n, d]⟩ ![0, o₂] gh s2)))))
      (mulf (logistic (addf (extractStridedSlice ⟨2, ![n, d]⟩ ![0, o₁] gi s1) (extractStridedSlice ⟨2, ![n, d]⟩ ![0, o₁] gh s1))) H)
    = gruCell hg gi gh H := by
  funext i
  obtain ⟨p, q, rfl⟩ : ∃ (p : Fin n) (q : Fin d), i = ix2 p q := ⟨i 0, i 1, eq_ix2 i⟩
  have e0 : ∀ v : FVec Ideal ⟨2, ![n, g]⟩ .f32, extractStridedSlice ⟨2, ![n, d]⟩ ![0, 0] v s0 (ix2 p q) = v (ix2 p (col0 hg q)) :=
    fun v => slice2_axis1_apply 0 v s0 p q (col0 hg q) (by show q.val = 0 + q.val; omega)
  have e1 : ∀ v : FVec Ideal ⟨2, ![n, g]⟩ .f32, extractStridedSlice ⟨2, ![n, d]⟩ ![0, o₁] v s1 (ix2 p q) = v (ix2 p (col1 hg q)) :=
    fun v => slice2_axis1_apply o₁ v s1 p q (col1 hg q) (by show d + q.val = o₁ + q.val; omega)
  have e2 : ∀ v : FVec Ideal ⟨2, ![n, g]⟩ .f32, extractStridedSlice ⟨2, ![n, d]⟩ ![0, o₂] v s2 (ix2 p q) = v (ix2 p (col2 hg q)) :=
    fun v => slice2_axis1_apply o₂ v s2 p q (col2 hg q) (by show d + d + q.val = o₂ + q.val; omega)
  show (Scalar.ofBits (F := Ideal) .f32 0x3F800000#32
        - Ideal.logistic (extractStridedSlice ⟨2, ![n, d]⟩ ![0, o₁] gi s1 (ix2 p q) + extractStridedSlice ⟨2, ![n, d]⟩ ![0, o₁] gh s1 (ix2 p q)))
      * Ideal.tanh (extractStridedSlice ⟨2, ![n, d]⟩ ![0, o₂] gi s2 (ix2 p q)
          + Ideal.logistic (extractStridedSlice ⟨2, ![n, d]⟩ ![0, 0] gi s0 (ix2 p q) + extractStridedSlice ⟨2, ![n, d]⟩ ![0, 0] gh s0 (ix2 p q))
            * extractStridedSlice ⟨2, ![n, d]⟩ ![0, o₂] gh s2 (ix2 p q))
      + Ideal.logistic (extractStridedSlice ⟨2, ![n, d]⟩ ![0, o₁] gi s1 (ix2 p q) + extractStridedSlice ⟨2, ![n, d]⟩ ![0, o₁] gh s1 (ix2 p q))
        * H (ix2 p q) = _
  rw [e0 gi, e0 gh, e1 gi, e1 gh, e2 gi, e2 gh]
  rfl

/-- The host's logistic function: 1 / (1 + exp (−v)) with ones broadcast from the constant one. -/
abbrev hostLogistic {s : Shape} (hz : (⟨0, ![]⟩ : Shape).BroadcastsInDim s ![]) (v : FVec Ideal s .f32) : FVec Ideal s .f32 :=
  Host.divf (broadcastInDim s ![] hz (constant (F := Ideal) ⟨0, ![]⟩ .f32 0x3F800000#32))
    (addf (broadcastInDim s ![] hz (constant (F := Ideal) ⟨0, ![]⟩ .f32 0x3F800000#32)) (Host.exp (Host.negf v)))

/-- On the extended reals that quotient is the logistic function, entry by entry. -/
theorem hostLogistic_apply {s : Shape} (hz : (⟨0, ![]⟩ : Shape).BroadcastsInDim s ![]) (v : FVec Ideal s .f32) (i : s.Idx) :
    hostLogistic hz v i = Ideal.logistic (v i) := by
  show Ideal.div (broadcastInDim s ![] hz (constant (F := Ideal) ⟨0, ![]⟩ .f32 0x3F800000#32) i)
      (broadcastInDim s ![] hz (constant (F := Ideal) ⟨0, ![]⟩ .f32 0x3F800000#32) i + Ideal.exp (-(v i))) = _
  rw [broadcastInDim_scalar_apply]
  show Ideal.div (Ideal.ofBits .f32 0x3F800000#32) (Ideal.ofBits .f32 0x3F800000#32 + Ideal.exp (-(v i))) = Ideal.div 1 (1 + Ideal.exp (-(v i)))
  rw [Ideal.ofBits_one_f32]

/-- A host program's gates: the same bands by slices; the logistic function as the quotient above; tanh; a one
    broadcast from a constant. -/
theorem host_cell (hg : g = 3 * d) (o₁ o₂ : Nat) (ho₁ : o₁ = d) (ho₂ : o₂ = d + d)
    (gi gh : FVec Ideal ⟨2, ![n, g]⟩ .f32) (H : FVec Ideal ⟨2, ![n, d]⟩ .f32)
    (s0 : (⟨2, ![n, g]⟩ : Shape).Slices ![0, 0] ⟨2, ![n, d]⟩)
    (s1 : (⟨2, ![n, g]⟩ : Shape).Slices ![0, o₁] ⟨2, ![n, d]⟩)
    (s2 : (⟨2, ![n, g]⟩ : Shape).Slices ![0, o₂] ⟨2, ![n, d]⟩)
    (hz : (⟨0, ![]⟩ : Shape).BroadcastsInDim ⟨2, ![n, d]⟩ ![]) :
    addf
      (mulf
        (subf (broadcastInDim ⟨2, ![n, d]⟩ ![] hz (constant (F := Ideal) ⟨0, ![]⟩ .f32 0x3F800000#32))
          (hostLogistic hz (addf (extractStridedSlice ⟨2, ![n, d]⟩ ![0, o₁] gi s1) (extractStridedSlice ⟨2, ![n, d]⟩ ![0, o₁] gh s1))))
        (Host.tanh (addf (extractStridedSlice ⟨2, ![n, d]⟩ ![0, o₂] gi s2)
          (mulf (hostLogistic hz (addf (extractStridedSlice ⟨2, ![n, d]⟩ ![0, 0] gi s0) (extractStridedSlice ⟨2, ![n, d]⟩ ![0, 0] gh s0)))
            (extractStridedSlice ⟨2, ![n, d]⟩ ![0, o₂] gh s2)))))
      (mulf (hostLogistic hz (addf (extractStridedSlice ⟨2, ![n, d]⟩ ![0, o₁] gi s1) (extractStridedSlice ⟨2, ![n, d]⟩ ![0, o₁] gh s1))) H)
    = gruCell hg gi gh H := by
  funext i
  obtain ⟨p, q, rfl⟩ : ∃ (p : Fin n) (q : Fin d), i = ix2 p q := ⟨i 0, i 1, eq_ix2 i⟩
  have e0 : ∀ v : FVec Ideal ⟨2, ![n, g]⟩ .f32, extractStridedSlice ⟨2, ![n, d]⟩ ![0, 0] v s0 (ix2 p q) = v (ix2 p (col0 hg q)) :=
    fun v => slice2_axis1_apply 0 v s0 p q (col0 hg q) (by show q.val = 0 + q.val; omega)
  have e1 : ∀ v : FVec Ideal ⟨2, ![n, g]⟩ .f32, extractStridedSlice ⟨2, ![n, d]⟩ ![0, o₁] v s1 (ix2 p q) = v (ix2 p (col1 hg q)) :=
    fun v => slice2_axis1_apply o₁ v s1 p q (col1 hg q) (by show d + q.val = o₁ + q.val; omega)
  have e2 : ∀ v : FVec Ideal ⟨2, ![n, g]⟩ .f32, extractStridedSlice ⟨2, ![n, d]⟩ ![0, o₂] v s2 (ix2 p q) = v (ix2 p (col2 hg q)) :=
    fun v => slice2_axis1_apply o₂ v s2 p q (col2 hg q) (by show d + d + q.val = o₂ + q.val; omega)
  show (broadcastInDim ⟨2, ![n, d]⟩ ![] hz (constant (F := Ideal) ⟨0, ![]⟩ .f32 0x3F800000#32) (ix2 p q)
        - hostLogistic hz (addf (extractStridedSlice ⟨2, ![n, d]⟩ ![0, o₁] gi s1) (extractStridedSlice ⟨2, ![n, d]⟩ ![0, o₁] gh s1)) (ix2 p q))
      * Ideal.tanh (extractStridedSlice ⟨2, ![n, d]⟩ ![0, o₂] gi s2 (ix2 p q)
          + hostLogistic hz (addf (extractStridedSlice ⟨2, ![n, d]⟩ ![0, 0] gi s0) (extractStridedSlice ⟨2, ![n, d]⟩ ![0, 0] gh s0)) (ix2 p q)
            * extractStridedSlice ⟨2, ![n, d]⟩ ![0, o₂] gh s2 (ix2 p q))
      + hostLogistic hz (addf (extractStridedSlice ⟨2, ![n, d]⟩ ![0, o₁] gi s1) (extractStridedSlice ⟨2, ![n, d]⟩ ![0, o₁] gh s1)) (ix2 p q)
        * H (ix2 p q) = _
  rw [hostLogistic_apply, hostLogistic_apply, broadcastInDim_scalar_apply]
  show (Ideal.ofBits .f32 0x3F800000#32
        - Ideal.logistic (extractStridedSlice ⟨2, ![n, d]⟩ ![0, o₁] gi s1 (ix2 p q) + extractStridedSlice ⟨2, ![n, d]⟩ ![0, o₁] gh s1 (ix2 p q)))
      * Ideal.tanh (extractStridedSlice ⟨2, ![n, d]⟩ ![0, o₂] gi s2 (ix2 p q)
          + Ideal.logistic (extractStridedSlice ⟨2, ![n, d]⟩ ![0, 0] gi s0 (ix2 p q) + extractStridedSlice ⟨2, ![n, d]⟩ ![0, 0] gh s0 (ix2 p q))
            * extractStridedSlice ⟨2, ![n, d]⟩ ![0, o₂] gh s2 (ix2 p q))
      + Ideal.logistic (extractStridedSlice ⟨2, ![n, d]⟩ ![0, o₁] gi s1 (ix2 p q) + extractStridedSlice ⟨2, ![n, d]⟩ ![0, o₁] gh s1 (ix2 p q))
        * H (ix2 p q) = _
  rw [e0 gi, e0 gh, e1 gi, e1 gh, e2 gi, e2 gh]
  rfl

end Cert.Lib.GruCell

end
-- ==== Proof.KernelBlocks.lean ====
/-
  What each kernel body leaves in its output block, as a function of its input blocks, on the extended reals.

  The message layers' body: its 1024×256 block of products X, the two weight blocks and the two bias vectors give
  mlp X W₁ b₁ W₂ b₂ = (max(X·W₁ + b₁, 0))·W₂ + b₂; the changes of float format around the products are the identity.

  The recurrent cell's body: three steps of the cell, fed in turn the embedding block, the inner-message block and
  the outer-message block, starting from the block of the initial state, all with the same two weight blocks and
  the same two bias vectors.
-/
import proofs.«131273_j42004780155451_1_alg».proof.Proof.Gen.KernelIdeal.Frame
import proofs.«131273_j42004780155451_1_alg».proof.Proof.LibAffineRows
import proofs.«131273_j42004780155451_1_alg».proof.Proof.LibGruCell

set_option maxRecDepth 16384

noncomputable section

namespace Cert.KernelIdeal.Blocks

open Cert.KernelIdeal Cert.KernelIdeal.Gen
open Idealize.ShloMosaic Idealize.ShloMosaic.ValueIdx
open Cert.Lib.MatProd Cert.Lib.AffineRows Cert.Lib.GruCell

theorem hz2 : (![0, 0] : Fin 2 → Nat) = fun _ => 0 := funext fun a => by fin_cases a <;> rfl
theorem hz1 : (![0] : Fin 1 → Nat) = fun _ => 0 := funext fun a => by fin_cases a; rfl

/-- The gate arrays have three bands of 256 columns. -/
theorem hg : (768 : Nat) = 3 * 256 := rfl

/-! ## The message layers -/

/-- The body's arithmetic is the two layers with the clamp between them. -/
theorem pay_mlp (x0 : Vec Ideal S1024x256 .f32) (x1 : Vec Ideal S256x1024 .bf16) (x2 : Vec Ideal S1024 .f32)
    (x3 : Vec Ideal S1024x256 .bf16) (x4 : Vec Ideal S256 .f32) :
    k0_pay1 (F := Ideal) x0 x1 x2 x3 x4 = mlp x0 x1 x2 x3 x4 := by
  unfold k0_pay1
  simp only [shapeCast_self]
  rw [body_affine dot_S1024x256_S256x1024_S1024x1024_1_0_0_1_n_n rfl rfl rfl rfl rfl rfl, body_clamp,
    body_affine dot_S1024x1024_S1024x256_S1024x256_1_0_0_1_n_n rfl rfl rfl rfl rfl rfl]
  rfl

/-- The output block after the body, from the input blocks. -/
theorem out_mlp (x0 : Vec Ideal S1024x256 .f32) (x1 : Vec Ideal S256x1024 .bf16) (x2 : Vec Ideal S1024 .f32)
    (x3 : Vec Ideal S1024x256 .bf16) (x4 : Vec Ideal S256 .f32) :
    out0_5 (F := Ideal) x0 x1 x2 x3 x4 = mlp x0 x1 x2 x3 x4 := by
  unfold out0_5
  rw [View.canon_unit_zero hz2]
  simp only [View.ld_unit_zero (S := S1024x256) hz2, View.ld_unit_zero (S := S256x1024) hz2,
    View.ld_unit_zero (S := S1024) hz1, View.ld_unit_zero (S := S256) hz1]
  exact pay_mlp x0 x1 x2 x3 x4

/-! ## The recurrent cell -/

/-- The first step, from the loaded blocks. -/
theorem pay_step1 (H X : Vec Ideal S1024x256 .f32) (Wi : Vec Ideal S256x768 .bf16) (bi : Vec Ideal S768 .f32)
    (Wh : Vec Ideal S256x768 .bf16) (bh : Vec Ideal S768 .f32) :
    k1_pay2 (F := Ideal) H X Wi bi Wh bh = gruStep hg X H Wi Wh bi bh := by
  unfold k1_pay2
  simp only [shapeCast_self]
  rw [body_affine dot_S1024x256_S256x768_S1024x768_1_0_0_1_n_n rfl rfl rfl rfl rfl rfl (truncf .bf16 X bitsLt_bf16_f32) Wi bi,
    body_affine dot_S1024x256_S256x768_S1024x768_1_0_0_1_n_n rfl rfl rfl rfl rfl rfl (truncf .bf16 H bitsLt_bf16_f32) Wh bh]
  exact body_cell hg 256 512 rfl rfl _ _ H _ _ _

/-- The second step, from the first step's state (in both formats), the narrowed input block and the loaded
    weights. -/
theorem pay_step2 (H : FVec Ideal S1024x256 .f32) (Xn Hn : FVec Ideal S1024x256 .bf16) (Wi : Vec Ideal S256x768 .bf16)
    (bi : Vec Ideal S768 .f32) (Wh : Vec Ideal S256x768 .bf16) (bh : Vec Ideal S768 .f32) :
    k1_pay5 (F := Ideal) H Xn Hn Wi bi Wh bh = gruCell hg (affine Xn Wi bi) (affine Hn Wh bh) H := by
  unfold k1_pay5
  simp only [shapeCast_self]
  rw [body_affine dot_S1024x256_S256x768_S1024x768_1_0_0_1_n_n rfl rfl rfl rfl rfl rfl Xn Wi bi,
    body_affine dot_S1024x256_S256x768_S1024x768_1_0_0_1_n_n rfl rfl rfl rfl rfl rfl Hn Wh bh]
  exact body_cell hg 256 512 rfl rfl _ _ H _ _ _

/-- The third step's input layer. -/
theorem pay_in3 (X : Vec Ideal S1024x256 .f32) (Wi : Vec Ideal S256x768 .bf16) (bi : Vec Ideal S768 .f32) :
    k1_pay7 (F := Ideal) X Wi bi = affine X Wi bi := by
  unfold k1_pay7
  simp only [shapeCast_self]
  rw [body_affine dot_S1024x256_S256x768_S1024x768_1_0_0_1_n_n rfl rfl rfl rfl rfl rfl (truncf .bf16 X bitsLt_bf16_f32) Wi bi]
  rfl

/-- The third step, from the second step's state (in both formats), the third input layer and the loaded weights. -/
theorem pay_step3 (H : FVec Ideal S1024x256 .f32) (Hn : FVec Ideal S1024x256 .bf16) (gi : FVec Ideal S1024x768 .f32)
    (Wh : FVec Ideal S256x768 .bf16) (bh : Vec Ideal S768 .f32) :
    k1_pay1 (F := Ideal) H Hn gi Wh (constant S1024x768 .f32 0x00000000#32) bh = gruCell hg gi (affine Hn Wh bh) H := by
  unfold k1_pay1
  dsimp only
  rw [body_affine dot_S1024x256_S256x768_S1024x768_1_0_0_1_n_n rfl rfl rfl rfl rfl rfl Hn Wh bh]
  exact body_cell hg 256 512 rfl rfl _ _ H _ _ _

/-- The output block after the body, from the input blocks: three steps of the cell. -/
theorem out_gru (x0 x1 x2 x3 : Vec Ideal S1024x256 .f32) (x4 x5 : Vec Ideal S256x768 .bf16) (x6 x7 : Vec Ideal S768 .f32) :
    out1_8 (F := Ideal) x0 x1 x2 x3 x4 x5 x6 x7 = gru3 hg x0 x1 x2 x3 x4 x5 x6 x7 := by
  unfold out1_8
  rw [View.canon_unit_zero hz2]
  simp only [View.ld_unit_zero (S := S1024x256) hz2, View.ld_unit_zero (S := S256x768) hz2,
    View.ld_unit_zero (S := S768) hz1]
  rw [pay_step3, pay_in3]
  unfold k1_pay6 k1_pay8 k1_pay4 k1_pay3
  simp only [shapeCast_self]
  rw [pay_step2, pay_step1]
  rfl

end Cert.KernelIdeal.Blocks

end
-- ==== Proof.KernelArrays.lean ====
/-
  Each region's output array after the region, as one function of the arrays the region finds.

  Both regions cut their row arrays into blocks of 1024 consecutive rows, one block per grid point, and hand every
  point the whole of each weight array and bias vector. Point t writes back rows 1024·t … 1024·t + 1023 of the output.
  An entry of the layers depends on one row of the row arrays, so what point t writes back is block t of the layers
  of the WHOLE arrays; the blocks tile the output array, so after the last point the array is that whole-array
  function: mlp for the message layers' region, three steps of the cell for the other.
-/
import proofs.«131273_j42004780155451_1_alg».proof.Proof.KernelBlocks

set_option maxRecDepth 16384

noncomputable section

namespace Cert.KernelIdeal.Arrays

open Cert.KernelIdeal Cert.KernelIdeal.Gen Cert.KernelIdeal.Blocks
open Idealize.ShloMosaic Idealize.ShloMosaic.TcCoe Idealize.ShloMosaic.ValueIdx Idealize.SL.Sem
open Idealize.ShloMosaic.Pipeline (Dat Cfg Window)
open Cert.Lib.MatProd Cert.Lib.AffineRows Cert.Lib.GruCell

variable (V : (c : Dev nD) → (b : Ref sig .tc) → Buf (Elt Ideal) ((c : Thread nD τ).loc b))

/-! ## The message layers' region -/

/-- The two layers of the whole 172032×256 array of products. -/
abbrev Gmlp (X : S172032x256.Idx → EReal) (W₁ : S256x1024.Idx → EReal) (b₁ : S1024.Idx → EReal)
    (W₂ : S1024x256.Idx → EReal) (b₂ : S256.Idx → EReal) : S172032x256.Idx → EReal :=
  mlp X W₁ b₁ W₂ b₂

/-- The index maps, decided over the grid: the row windows' block index is the point, every other is zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- A window over a whole array hands every point the array. -/
theorem whole0_1 (c : Dev nD) (t : Fin cfg0.N) : (iblk0 (F := Ideal) V c 1 t : S256x1024.Idx → EReal) = V c main_v38 := by
  obtain ⟨-, -, e2, e3, -⟩ := idx_facts0 t
  funext y
  show V c main_v38 (((cfg0.win 1).blk t).view.emb y) = V c main_v38 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 1024 + 1 * (y 1).val = (y 1).val; omega
theorem whole0_2 (c : Dev nD) (t : Fin cfg0.N) : (iblk0 (F := Ideal) V c 2 t : S1024.Idx → EReal) = V c main_arg8 := by
  obtain ⟨-, -, -, -, e4, -⟩ := idx_facts0 t
  funext y
  show V c main_arg8 (((cfg0.win 2).blk t).view.emb y) = V c main_arg8 y
  refine congrArg _ (funext fun a => Fin.ext ?_)
  match a with
  | ⟨0, _⟩ => show win0_2.index t (0 : Fin 1) * 1024 + 1 * (y 0).val = (y 0).val; omega
theorem whole0_3 (c : Dev nD) (t : Fin cfg0.N) : (iblk0 (F := Ideal) V c 3 t : S1024x256.Idx → EReal) = V c main_v40 := by
  obtain ⟨-, -, -, -, -, e5, e6, -⟩ := idx_facts0 t
  funext y
  show V c main_v40 (((cfg0.win 3).blk t).view.emb y) = V c main_v40 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 256 + 1 * (y 1).val = (y 1).val; omega
theorem whole0_4 (c : Dev nD) (t : Fin cfg0.N) : (iblk0 (F := Ideal) V c 4 t : S256.Idx → EReal) = V c main_arg10 := by
  obtain ⟨-, -, -, -, -, -, -, e7, -⟩ := idx_facts0 t
  funext y
  show V c main_arg10 (((cfg0.win 4).blk t).view.emb y) = V c main_arg10 y
  refine congrArg _ (funext fun a => Fin.ext ?_)
  match a with
  | ⟨0, _⟩ => show win0_4.index t (0 : Fin 1) * 256 + 1 * (y 0).val = (y 0).val; omega

/-- What point t writes back is block t of the layers of the whole arrays. -/
theorem flushed_mlp (c : Dev nD) (t : Fin cfg0.N) :
    (dat0 (F := Ideal) V c).flushed 5 t
      = ((cfg0.win 5).blk t).view.read (Elt Ideal)
          (Gmlp (V c main_v36) (V c main_v38) (V c main_arg8) (V c main_v40) (V c main_arg10)) := by
  show (cfg0.win 5).cut (grid0.coords t) ((dat0 V c).after 5 t) = _
  rw [after0_5, out_mlp]
  obtain ⟨e0, e1, -, -, -, -, -, -, e8, e9⟩ := idx_facts0 t
  funext j
  show mlp (iblk0 V c 0 t) (iblk0 V c 1 t) (iblk0 V c 2 t) (iblk0 V c 3 t) (iblk0 V c 4 t) j
    = mlp (V c main_v36) (V c main_v38) (V c main_arg8) (V c main_v40) (V c main_arg10) (((cfg0.win 5).blk t).view.emb j)
  rw [whole0_1 V c t, whole0_2 V c t, whole0_3 V c t, whole0_4 V c t]
  refine mlp_rows (V c main_v36) (iblk0 V c 0 t) (V c main_v38) (V c main_arg8) (V c main_v40) (V c main_arg10) j _ (fun q => ?_) ?_
  · show V c main_v36 (((cfg0.win 0).blk t).view.emb (ix2 (j 0) q)) = V c main_v36 (ix2 ((((cfg0.win 5).blk t).view.emb j) 0) q)
    refine congrArg _ (funext fun a => Fin.ext ?_)
    match a with
    | ⟨0, _⟩ => show win0_0.index t (0 : Fin 2) * 1024 + 1 * (j 0).val = win0_5.index t (0 : Fin 2) * 1024 + 1 * (j 0).val; omega
    | ⟨1, _⟩ => show win0_0.index t (1 : Fin 2) * 256 + 1 * q.val = q.val; omega
  · show (j 1).val = win0_5.index t (1 : Fin 2) * 256 + 1 * (j 1).val; omega

/-- An index of the output array is in point t's block iff each coordinate is in the block's range on its axis. -/
theorem mem_blk0 (t : Fin cfg0.N) (i : S172032x256.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v41).slice (win0_5.rect t)).set ↔ _
  rw [View.set_slice_whole, Rect.mem_set_unit]
  exact Iff.rfl

/-- Row r lies in the block of point r / 1024: the blocks tile the array. -/
theorem cover0 (i : S172032x256.Idx) :
    ∃ t : Fin cfg0.N, (cfg0.win 5).flush t = true ∧ i ∈ ((cfg0.win 5).blk t).view.set := by
  have hi0 : (i 0).val < 172032 := (i 0).isLt
  have hi1 : (i 1).val < 256 := (i 1).isLt
  have ht : (i 0).val / 1024 < cfg0.N := lt_of_lt_of_eq (by omega : (i 0).val / 1024 < 168) N_0.symm
  obtain ⟨-, -, -, -, -, -, -, -, e8, e9⟩ := idx_facts0 ⟨(i 0).val / 1024, ht⟩
  refine ⟨⟨(i 0).val / 1024, ht⟩, flush0_5 _, ?_⟩
  rw [mem_blk0]
  intro a
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    rw [e8]
    show (i 0).val / 1024 * 1024 ≤ (i 0).val ∧ (i 0).val < (i 0).val / 1024 * 1024 + 1024
    omega
  | ⟨1, _⟩ =>
    show win0_5.index ⟨(i 0).val / 1024, ht⟩ (1 : Fin 2) * 256 ≤ (i 1).val
      ∧ (i 1).val < win0_5.index ⟨(i 0).val / 1024, ht⟩ (1 : Fin 2) * 256 + 256
    rw [e9]
    omega

/-- After the region, its output array is the two layers of the whole array of products. -/
theorem arr_mlp (c : Dev nD) :
    (dat0 (F := Ideal) V c).arrAt 5 cfg0.N
      = Gmlp (V c main_v36) (V c main_v38) (V c main_arg8) (V c main_v40) (V c main_arg10) :=
  (dat0 V c).arrAt_eq_of_cover 5 _ (fun t _ => flushed_mlp V c t) cover0

/-! ## The recurrent cell's region -/

/-- Three steps of the cell on the whole 40960×256 arrays. -/
abbrev Ggru (X I O H : S40960x256.Idx → EReal) (Wi Wh : S256x768.Idx → EReal) (bi bh : S768.Idx → EReal) :
    S40960x256.Idx → EReal :=
  gru3 hg X I O H Wi Wh bi bh

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 1) = 0
    ∧ win1_8.index t (0 : Fin 2) = t.val ∧ win1_8.index t (1 : Fin 2) = 0 :=
  (by decide +kernel : ∀ t : Fin grid1.N, _)

theorem whole1_4 (c : Dev nD) (t : Fin cfg1.N) : (iblk1 (F := Ideal) V c 4 t : S256x768.Idx → EReal) = V c main_v86 := by
  obtain ⟨-, -, -, -, -, -, -, -, e8, e9, -⟩ := idx_facts1 t
  funext y
  show V c main_v86 (((cfg1.win 4).blk t).view.emb y) = V c main_v86 y
  refine congrArg _ (funext fun a => Fin.ext ?_)
  match a with
  | ⟨0, _⟩ => show win1_4.index t (0 : Fin 2) * 256 + 1 * (y 0).val = (y 0).val; omega
  | ⟨1, _⟩ => show win1_4.index t (1 : Fin 2) * 768 + 1 * (y 1).val = (y 1).val; omega
theorem whole1_5 (c : Dev nD) (t : Fin cfg1.N) : (iblk1 (F := Ideal) V c 5 t : S256x768.Idx → EReal) = V c main_v88 := by
  obtain ⟨-, -, -, -, -, -, -, -, -, -, e10, e11, -⟩ := idx_facts1 t
  funext y
  show V c main_v88 (((cfg1.win 5).blk t).view.emb y) = V c main_v88 y
  refine congrArg _ (funext fun a => Fin.ext ?_)
  match a with
  | ⟨0, _⟩ => show win1_5.index t (0 : Fin 2) * 256 + 1 * (y 0).val = (y 0).val; omega
  | ⟨1, _⟩ => show win1_5.index t (1 : Fin 2) * 768 + 1 * (y 1).val = (y 1).val; omega
theorem whole1_6 (c : Dev nD) (t : Fin cfg1.N) : (iblk1 (F := Ideal) V c 6 t : S768.Idx → EReal) = V c main_arg13 := by
  obtain ⟨-, -, -, -, -, -, -, -, -, -, -, -, e12, -⟩ := idx_facts1 t
  funext y
  show V c main_arg13 (((cfg1.win 6).blk t).view.emb y) = V c main_arg13 y
  refine congrArg _ (funext fun a => Fin.ext ?_)
  match a with
  | ⟨0, _⟩ => show win1_6.index t (0 : Fin 1) * 768 + 1 * (y 0).val = (y 0).val; omega
theorem whole1_7 (c : Dev nD) (t : Fin cfg1.N) : (iblk1 (F := Ideal) V c 7 t : S768.Idx → EReal) = V c main_arg14 := by
  obtain ⟨-, -, -, -, -, -, -, -, -, -, -, -, -, e13, -⟩ := idx_facts1 t
  funext y
  show V c main_arg14 (((cfg1.win 7).blk t).view.emb y) = V c main_arg14 y
  refine congrArg _ (funext fun a => Fin.ext ?_)
  match a with
  | ⟨0, _⟩ => show win1_7.index t (0 : Fin 1) * 768 + 1 * (y 0).val = (y 0).val; omega

/-- What point t writes back is block t of the three steps on the whole arrays. -/
theorem flushed_gru (c : Dev nD) (t : Fin cfg1.N) :
    (dat1 (F := Ideal) V c).flushed 8 t
      = ((cfg1.win 8).blk t).view.read (Elt Ideal)
          (Ggru (V c main_v17) (V c main_v53) (V c main_v84) (V c main_arg15) (V c main_v86) (V c main_v88)
            (V c main_arg13) (V c main_arg14)) := by
  show (cfg1.win 8).cut (grid1.coords t) ((dat1 V c).after 8 t) = _
  rw [after1_8, out_gru]
  obtain ⟨a0, a1, b0, b1, c0, c1, d0, d1, -, -, -, -, -, -, e0, e1⟩ := idx_facts1 t
  funext j
  show gru3 hg (iblk1 V c 0 t) (iblk1 V c 1 t) (iblk1 V c 2 t) (iblk1 V c 3 t) (iblk1 V c 4 t) (iblk1 V c 5 t)
      (iblk1 V c 6 t) (iblk1 V c 7 t) j
    = gru3 hg (V c main_v17) (V c main_v53) (V c main_v84) (V c main_arg15) (V c main_v86) (V c main_v88)
      (V c main_arg13) (V c main_arg14) (((cfg1.win 8).blk t).view.emb j)
  rw [whole1_4 V c t, whole1_5 V c t, whole1_6 V c t, whole1_7 V c t]
  refine gru3_rows hg (V c main_v17) (V c main_v53) (V c main_v84) (V c main_arg15)
    (iblk1 V c 0 t) (iblk1 V c 1 t) (iblk1 V c 2 t) (iblk1 V c 3 t)
    (V c main_v86) (V c main_v88) (V c main_arg13) (V c main_arg14) j _
    (fun q => ?_) (fun q => ?_) (fun q => ?_) (fun q => ?_) ?_
  · show V c main_v17 (((cfg1.win 0).blk t).view.emb (ix2 (j 0) q)) = V c main_v17 (ix2 ((((cfg1.win 8).blk t).view.emb j) 0) q)
    refine congrArg _ (funext fun a => Fin.ext ?_)
    match a with
    | ⟨0, _⟩ => show win1_0.index t (0 : Fin 2) * 1024 + 1 * (j 0).val = win1_8.index t (0 : Fin 2) * 1024 + 1 * (j 0).val; omega
    | ⟨1, _⟩ => show win1_0.index t (1 : Fin 2) * 256 + 1 * q.val = q.val; omega
  · show V c main_v53 (((cfg1.win 1).blk t).view.emb (ix2 (j 0) q)) = V c main_v53 (ix2 ((((cfg1.win 8).blk t).view.emb j) 0) q)
    refine congrArg _ (funext fun a => Fin.ext ?_)
    match a with
    | ⟨0, _⟩ => show win1_1.index t (0 : Fin 2) * 1024 + 1 * (j 0).val = win1_8.index t (0 : Fin 2) * 1024 + 1 * (j 0).val; omega
    | ⟨1, _⟩ => show win1_1.index t (1 : Fin 2) * 256 + 1 * q.val = q.val; omega
  · show V c main_v84 (((cfg1.win 2).blk t).view.emb (ix2 (j 0) q)) = V c main_v84 (ix2 ((((cfg1.win 8).blk t).view.emb j) 0) q)
    refine congrArg _ (funext fun a => Fin.ext ?_)
    match a with
    | ⟨0, _⟩ => show win1_2.index t (0 : Fin 2) * 1024 + 1 * (j 0).val = win1_8.index t (0 : Fin 2) * 1024 + 1 * (j 0).val; omega
    | ⟨1, _⟩ => show win1_2.index t (1 : Fin 2) * 256 + 1 * q.val = q.val; omega
  · show V c main_arg15 (((cfg1.win 3).blk t).view.emb (ix2 (j 0) q)) = V c main_arg15 (ix2 ((((cfg1.win 8).blk t).view.emb j) 0) q)
    refine congrArg _ (funext fun a => Fin.ext ?_)
    match a with
    | ⟨0, _⟩ => show win1_3.index t (0 : Fin 2) * 1024 + 1 * (j 0).val = win1_8.index t (0 : Fin 2) * 1024 + 1 * (j 0).val; omega
    | ⟨1, _⟩ => show win1_3.index t (1 : Fin 2) * 256 + 1 * q.val = q.val; omega
  · refine Fin.ext ?_
    show (j 1).val = win1_8.index t (1 : Fin 2) * 256 + 1 * (j 1).val
    omega

theorem mem_blk1 (t : Fin cfg1.N) (i : S40960x256.Idx) :
    i ∈ ((cfg1.win 8).blk t).view.set ↔ ∀ a : Fin 2, win1_8.index t a * S1024x256.size a ≤ (i a).val
      ∧ (i a).val < win1_8.index t a * S1024x256.size a + S1024x256.size a := by
  show i ∈ ((View.whole main_v89).slice (win1_8.rect t)).set ↔ _
  rw [View.set_slice_whole, Rect.mem_set_unit]
  exact Iff.rfl

theorem cover1 (i : S40960x256.Idx) :
    ∃ t : Fin cfg1.N, (cfg1.win 8).flush t = true ∧ i ∈ ((cfg1.win 8).blk t).view.set := by
  have hi0 : (i 0).val < 40960 := (i 0).isLt
  have hi1 : (i 1).val < 256 := (i 1).isLt
  have ht : (i 0).val / 1024 < cfg1.N := lt_of_lt_of_eq (by omega : (i 0).val / 1024 < 40) N_1.symm
  obtain ⟨-, -, -, -, -, -, -, -, -, -, -, -, -, -, e0, e1⟩ := idx_facts1 ⟨(i 0).val / 1024, ht⟩
  refine ⟨⟨(i 0).val / 1024, ht⟩, flush1_8 _, ?_⟩
  rw [mem_blk1]
  intro a
  match a with
  | ⟨0, _⟩ =>
    show win1_8.index ⟨(i 0).val / 1024, ht⟩ (0 : Fin 2) * 1024 ≤ (i 0).val
      ∧ (i 0).val < win1_8.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win1_8.index ⟨(i 0).val / 1024, ht⟩ (1 : Fin 2) * 256 ≤ (i 1).val
      ∧ (i 1).val < win1_8.index ⟨(i 0).val / 1024, ht⟩ (1 : Fin 2) * 256 + 256
    rw [e1]
    omega

/-- After the region, its output array is three steps of the cell on the whole arrays. -/
theorem arr_gru (c : Dev nD) :
    (dat1 (F := Ideal) V c).arrAt 8 cfg1.N
      = Ggru (V c main_v17) (V c main_v53) (V c main_v84) (V c main_arg15) (V c main_v86) (V c main_v88)
          (V c main_arg13) (V c main_arg14) :=
  (dat1 V c).arrAt_eq_of_cover 8 _ (fun t _ => flushed_gru V c t) cover1

end Cert.KernelIdeal.Arrays

end
-- ==== Proof.RefLayers.lean ====
/-
  The reference's message layers and its three recurrent steps, as functions of whole arrays.

  The reference computes the message layers on the whole 172032×256 array of products with two dot_generals, each
  followed by a bias broadcast down the rows, and a maximum with a broadcast zero between them: mlp of the products,
  the transposed weight arrays and the bias vectors. It computes each recurrent step on the whole 40960×256 arrays:
  two dot_generals with the transposed weights plus biases, the three bands cut by slices, the logistic function spelt
  1 / (1 + exp (−v)), tanh, and the blend with the old state: gruStep of the step's input and the previous state.
-/
import proofs.«131273_j42004780155451_1_alg».proof.Proof.RefRead
import proofs.«131273_j42004780155451_1_alg».proof.Proof.LibAffineRows
import proofs.«131273_j42004780155451_1_alg».proof.Proof.LibGruCell

set_option maxRecDepth 16384

noncomputable section

namespace Cert.ReferenceIdeal.Layers

open Cert.ReferenceIdeal Cert.ReferenceIdeal.Read
open Idealize.ShloMosaic Idealize.ShloMosaic.ValueIdx
open Cert.Lib.MatProd Cert.Lib.AffineRows Cert.Lib.GruCell

/-- The gate arrays have three bands of 256 columns. -/
theorem hg : (768 : Nat) = 3 * 256 := rfl

/-- The reference's message array is the two layers of its array of products. -/
theorem ref_mlp (x0 : (⟨S40960, .i32⟩ : BufTy).Contents (Elt Ideal)) (x3 : (⟨S2x172032, .i32⟩ : BufTy).Contents (Elt Ideal)) (x5 : (⟨S100001x256, .f32⟩ : BufTy).Contents (Elt Ideal))
    (x7 : (⟨S1024x256, .f32⟩ : BufTy).Contents (Elt Ideal)) (x8 : (⟨S1024, .f32⟩ : BufTy).Contents (Elt Ideal)) (x9 : (⟨S256x1024, .f32⟩ : BufTy).Contents (Elt Ideal)) (x10 : (⟨S256, .f32⟩ : BufTy).Contents (Elt Ideal)) :
    val_main_v47 (F := Ideal) x0 x3 x5 x7 x8 x9 x10
      = mlp (n := 172032) (k := 256) (h := 1024) (l := 256) (val_main_v36 (F := Ideal) x0 x3 x5) (val_main_v37 (F := Ideal) x7) x8 (val_main_v43 (F := Ideal) x9) x10 := by
  unfold val_main_v47 val_main_v46 val_main_v45 val_main_v44 val_main_v42 val_main_call0_v0 val_main_call0_cst val_main_v41 val_main_v40 val_main_v39 val_main_v38
  rw [host_affine dot_S172032x256_S256x1024_S172032x1024_1_0_0_1_n_n rfl rfl rfl rfl rfl rfl, host_clamp,
    host_affine dot_S172032x1024_S1024x256_S172032x256_1_0_0_1_n_n rfl rfl rfl rfl rfl rfl]
  rfl

/-- The first step: from the embedding array and the initial state. -/
theorem ref_step1 (x0 : (⟨S40960, .i32⟩ : BufTy).Contents (Elt Ideal)) (x5 : (⟨S100001x256, .f32⟩ : BufTy).Contents (Elt Ideal)) (x11 x12 : (⟨S768x256, .f32⟩ : BufTy).Contents (Elt Ideal))
    (x13 x14 : (⟨S768, .f32⟩ : BufTy).Contents (Elt Ideal)) (x15 : (⟨S40960x256, .f32⟩ : BufTy).Contents (Elt Ideal)) :
    val_main_v128 (F := Ideal) x0 x5 x11 x12 x13 x14 x15
      = gruStep (n := 40960) (k := 256) hg (val_main_v17 (F := Ideal) x0 x5) x15 (val_main_v91 (F := Ideal) x11) (val_main_v96 (F := Ideal) x12) x13 x14 := by
  unfold val_main_v128 val_main_v127 val_main_v126 val_main_v125 val_main_v124 val_main_cst_23 val_main_v123 val_main_v122 val_main_v121 val_main_v120 val_main_v119 val_main_cst_22 val_main_v118 val_main_v117 val_main_cst_21 val_main_v116 val_main_v115 val_main_v114 val_main_v113 val_main_v112 val_main_cst_20 val_main_v111 val_main_v110 val_main_cst_19 val_main_v109 val_main_v108 val_main_v107 val_main_v106 val_main_v105 val_main_v104 val_main_v103 val_main_v102 val_main_v101 val_main_v100 val_main_v99 val_main_v98 val_main_v97 val_main_v95 val_main_v94 val_main_v93 val_main_v92
  rw [host_affine dot_S40960x256_S256x768_S40960x768_1_0_0_1_n_n rfl rfl rfl rfl rfl rfl (val_main_v17 (F := Ideal) x0 x5) (val_main_v91 (F := Ideal) x11) x13,
    host_affine dot_S40960x256_S256x768_S40960x768_1_0_0_1_n_n rfl rfl rfl rfl rfl rfl x15 (val_main_v96 (F := Ideal) x12) x14]
  exact host_cell hg 256 512 rfl rfl _ _ x15 _ _ _ _

/-- The second step: from the inner-message array and the first step's state. -/
theorem ref_step2 (x0 : (⟨S40960, .i32⟩ : BufTy).Contents (Elt Ideal)) (x3 : (⟨S2x172032, .i32⟩ : BufTy).Contents (Elt Ideal)) (x5 : (⟨S100001x256, .f32⟩ : BufTy).Contents (Elt Ideal))
    (x7 : (⟨S1024x256, .f32⟩ : BufTy).Contents (Elt Ideal)) (x8 : (⟨S1024, .f32⟩ : BufTy).Contents (Elt Ideal)) (x9 : (⟨S256x1024, .f32⟩ : BufTy).Contents (Elt Ideal)) (x10 : (⟨S256, .f32⟩ : BufTy).Contents (Elt Ideal))
    (x11 x12 : (⟨S768x256, .f32⟩ : BufTy).Contents (Elt Ideal)) (x13 x14 : (⟨S768, .f32⟩ : BufTy).Contents (Elt Ideal)) (x15 : (⟨S40960x256, .f32⟩ : BufTy).Contents (Elt Ideal)) :
    val_main_v166 (F := Ideal) x0 x3 x5 x7 x8 x9 x10 x11 x12 x13 x14 x15
      = gruStep (n := 40960) (k := 256) hg (val_main_v59 (F := Ideal) x0 x3 x5 x7 x8 x9 x10) (val_main_v128 (F := Ideal) x0 x5 x11 x12 x13 x14 x15)
          (val_main_v91 (F := Ideal) x11) (val_main_v96 (F := Ideal) x12) x13 x14 := by
  unfold val_main_v166 val_main_v165 val_main_v164 val_main_v163 val_main_v162 val_main_cst_28 val_main_v161 val_main_v160 val_main_v159 val_main_v158 val_main_v157 val_main_cst_27 val_main_v156 val_main_v155 val_main_cst_26 val_main_v154 val_main_v153 val_main_v152 val_main_v151 val_main_v150 val_main_cst_25 val_main_v149 val_main_v148 val_main_cst_24 val_main_v147 val_main_v146 val_main_v145 val_main_v144 val_main_v143 val_main_v142 val_main_v141 val_main_v140 val_main_v139 val_main_v138 val_main_v137 val_main_v136 val_main_v135 val_main_v133 val_main_v132 val_main_v131 val_main_v130
  rw [host_affine dot_S40960x256_S256x768_S40960x768_1_0_0_1_n_n rfl rfl rfl rfl rfl rfl (val_main_v59 (F := Ideal) x0 x3 x5 x7 x8 x9 x10) (val_main_v129 (F := Ideal) x11) x13,
    host_affine dot_S40960x256_S256x768_S40960x768_1_0_0_1_n_n rfl rfl rfl rfl rfl rfl (val_main_v128 (F := Ideal) x0 x5 x11 x12 x13 x14 x15) (val_main_v134 (F := Ideal) x12) x14]
  exact host_cell hg 256 512 rfl rfl _ _ (val_main_v128 (F := Ideal) x0 x5 x11 x12 x13 x14 x15) _ _ _ _

/-- The third step: from the outer-message array and the second step's state. -/
theorem ref_step3 (x0 : (⟨S40960, .i32⟩ : BufTy).Contents (Elt Ideal)) (x3 : (⟨S2x172032, .i32⟩ : BufTy).Contents (Elt Ideal)) (x4 : (⟨S2x196608, .i32⟩ : BufTy).Contents (Elt Ideal))
    (x5 : (⟨S100001x256, .f32⟩ : BufTy).Contents (Elt Ideal))
    (x7 : (⟨S1024x256, .f32⟩ : BufTy).Contents (Elt Ideal)) (x8 : (⟨S1024, .f32⟩ : BufTy).Contents (Elt Ideal)) (x9 : (⟨S256x1024, .f32⟩ : BufTy).Contents (Elt Ideal)) (x10 : (⟨S256, .f32⟩ : BufTy).Contents (Elt Ideal))
    (x11 x12 : (⟨S768x256, .f32⟩ : BufTy).Contents (Elt Ideal)) (x13 x14 : (⟨S768, .f32⟩ : BufTy).Contents (Elt Ideal)) (x15 : (⟨S40960x256, .f32⟩ : BufTy).Contents (Elt Ideal)) :
    val_main_v204 (F := Ideal) x0 x3 x4 x5 x7 x8 x9 x10 x11 x12 x13 x14 x15
      = gruStep (n := 40960) (k := 256) hg (val_main_v90 (F := Ideal) x0 x4 x5) (val_main_v166 (F := Ideal) x0 x3 x5 x7 x8 x9 x10 x11 x12 x13 x14 x15)
          (val_main_v91 (F := Ideal) x11) (val_main_v96 (F := Ideal) x12) x13 x14 := by
  unfold val_main_v204 val_main_v203 val_main_v202 val_main_v201 val_main_v200 val_main_cst_33 val_main_v199 val_main_v198 val_main_v197 val_main_v196 val_main_v195 val_main_cst_32 val_main_v194 val_main_v193 val_main_cst_31 val_main_v192 val_main_v191 val_main_v190 val_main_v189 val_main_v188 val_main_cst_30 val_main_v187 val_main_v186 val_main_cst_29 val_main_v185 val_main_v184 val_main_v183 val_main_v182 val_main_v181 val_main_v180 val_main_v179 val_main_v178 val_main_v177 val_main_v176 val_main_v175 val_main_v174 val_main_v173 val_main_v171 val_main_v170 val_main_v169 val_main_v168
  rw [host_affine dot_S40960x256_S256x768_S40960x768_1_0_0_1_n_n rfl rfl rfl rfl rfl rfl (val_main_v90 (F := Ideal) x0 x4 x5) (val_main_v167 (F := Ideal) x11) x13,
    host_affine dot_S40960x256_S256x768_S40960x768_1_0_0_1_n_n rfl rfl rfl rfl rfl rfl (val_main_v166 (F := Ideal) x0 x3 x5 x7 x8 x9 x10 x11 x12 x13 x14 x15) (val_main_v172 (F := Ideal) x12) x14]
  exact host_cell hg 256 512 rfl rfl _ _ (val_main_v166 (F := Ideal) x0 x3 x5 x7 x8 x9 x10 x11 x12 x13 x14 x15) _ _ _ _

/-- The reference's last state is three steps of the cell from the initial state. -/
theorem ref_gru (x0 : (⟨S40960, .i32⟩ : BufTy).Contents (Elt Ideal)) (x3 : (⟨S2x172032, .i32⟩ : BufTy).Contents (Elt Ideal)) (x4 : (⟨S2x196608, .i32⟩ : BufTy).Contents (Elt Ideal))
    (x5 : (⟨S100001x256, .f32⟩ : BufTy).Contents (Elt Ideal))
    (x7 : (⟨S1024x256, .f32⟩ : BufTy).Contents (Elt Ideal)) (x8 : (⟨S1024, .f32⟩ : BufTy).Contents (Elt Ideal)) (x9 : (⟨S256x1024, .f32⟩ : BufTy).Contents (Elt Ideal)) (x10 : (⟨S256, .f32⟩ : BufTy).Contents (Elt Ideal))
    (x11 x12 : (⟨S768x256, .f32⟩ : BufTy).Contents (Elt Ideal)) (x13 x14 : (⟨S768, .f32⟩ : BufTy).Contents (Elt Ideal)) (x15 : (⟨S40960x256, .f32⟩ : BufTy).Contents (Elt Ideal)) :
    val_main_v204 (F := Ideal) x0 x3 x4 x5 x7 x8 x9 x10 x11 x12 x13 x14 x15
      = gru3 (n := 40960) (k := 256) hg (val_main_v17 (F := Ideal) x0 x5) (val_main_v59 (F := Ideal) x0 x3 x5 x7 x8 x9 x10)
          (val_main_v90 (F := Ideal) x0 x4 x5) x15 (val_main_v91 (F := Ideal) x11) (val_main_v96 (F := Ideal) x12) x13 x14 := by
  rw [ref_step3, ref_step2, ref_step1]
  rfl

end Cert.ReferenceIdeal.Layers

end
-- ==== Proof.StagesA.lean ====
/-
  The idealized kernel's buffers up to the end of the message layers' region, in the reference's own terms.

  The kernel program's first stretch of host operations is, operation for operation, the reference's first lines
  (the table look-ups, the edge end points, the array of products of the end points' embeddings), plus the two weight
  arrays transposed and narrowed — and the narrowing is the identity on the extended reals. So where the region is
  entered each of its arrays is a stage of the reference, and when it is left its output array, the two layers of
  the whole array of products, is the reference's message array.
-/
import proofs.«131273_j42004780155451_1_alg».proof.Proof.KernelArrays
import proofs.«131273_j42004780155451_1_alg».proof.Proof.RefLayers

set_option maxRecDepth 16384

noncomputable section

namespace Cert.KernelIdeal.Stages

open Cert.KernelIdeal Cert.KernelIdeal.Gen Cert.KernelIdeal.Arrays
open Cert.ReferenceIdeal.Read
open Idealize.ShloMosaic Idealize.ShloMosaic.TcCoe Idealize.ShloMosaic.StableHlo Idealize.SL.Sem
open Cert.Lib.MatProd Cert.Lib.AffineRows Cert.Lib.GruCell

variable (m : (ℓ : Loc nD τ sig) → Buf (Elt Ideal) ℓ) (ρ : Dev nD → PrngReg) (c : Dev nD)

/-! ## Where the first region is entered -/

theorem s1_v36 : W1 m ρ c (Proc.devRef .tc main_v36)
    = val_main_v36 (F := Ideal) (m ((c.tc : Thread nD τ).loc main_arg0)) (m ((c.tc : Thread nD τ).loc main_arg3))
        (m ((c.tc : Thread nD τ).loc main_arg5)) := by
  dsimp only [W1, hostOps0]
  after_results_simp <;> rfl

theorem s1_v38 : (W1 m ρ c (Proc.devRef .tc main_v38) : S256x1024.Idx → EReal)
    = val_main_v37 (F := Ideal) (m ((c.tc : Thread nD τ).loc main_arg7)) := by
  dsimp only [W1, hostOps0]
  after_results_simp <;> rfl

theorem s1_v40 : (W1 m ρ c (Proc.devRef .tc main_v40) : S1024x256.Idx → EReal)
    = val_main_v43 (F := Ideal) (m ((c.tc : Thread nD τ).loc main_arg9)) := by
  dsimp only [W1, hostOps0]
  after_results_simp <;> rfl

theorem s1_arg8 : W1 m ρ c (Proc.devRef .tc main_arg8) = m ((c.tc : Thread nD τ).loc main_arg8) := by
  dsimp only [W1, hostOps0]
  after_results_simp <;> rfl

theorem s1_arg10 : W1 m ρ c (Proc.devRef .tc main_arg10) = m ((c.tc : Thread nD τ).loc main_arg10) := by
  dsimp only [W1, hostOps0]
  after_results_simp <;> rfl

/-! ## Where it is left -/

/-- The region's output array is the reference's message array. -/
theorem s2_v41 : W2 m ρ c (Proc.devRef .tc main_v41)
    = val_main_v47 (F := Ideal) (m ((c.tc : Thread nD τ).loc main_arg0)) (m ((c.tc : Thread nD τ).loc main_arg3))
        (m ((c.tc : Thread nD τ).loc main_arg5)) (m ((c.tc : Thread nD τ).loc main_arg7))
        (m ((c.tc : Thread nD τ).loc main_arg8)) (m ((c.tc : Thread nD τ).loc main_arg9))
        (m ((c.tc : Thread nD τ).loc main_arg10)) := by
  refine (W2_arr m ρ c 5).trans ?_
  rw [arr_mlp (V1 m ρ) c, Cert.ReferenceIdeal.Layers.ref_mlp]
  show Gmlp (W1 m ρ c (Proc.devRef .tc main_v36)) (W1 m ρ c (Proc.devRef .tc main_v38))
      (W1 m ρ c (Proc.devRef .tc main_arg8)) (W1 m ρ c (Proc.devRef .tc main_v40))
      (W1 m ρ c (Proc.devRef .tc main_arg10)) = _
  rw [s1_v36 m ρ c, s1_v38 m ρ c, s1_arg8 m ρ c, s1_v40 m ρ c, s1_arg10 m ρ c]

end Cert.KernelIdeal.Stages

end
-- ==== Proof.StagesB.lean ====
/-
  The idealized kernel's buffers from the end of the message layers' region to the end of the recurrent cell's
  region, in the reference's own terms.

  The second stretch of host operations is the reference's own lines for the two segment means (the messages summed
  at their targets and divided by the counts joined with one) and the two weight arrays of the cell transposed and
  narrowed. So where the cell's region is entered its arrays are the reference's embedding array, inner-message
  array, outer-message array, initial state, transposed weights and biases; and when it is left its output array,
  three steps of the cell on those whole arrays, is the reference's last state.
-/
import proofs.«131273_j42004780155451_1_alg».proof.Proof.StagesA

set_option maxRecDepth 16384

noncomputable section

namespace Cert.KernelIdeal.Stages

open Cert.KernelIdeal Cert.KernelIdeal.Gen Cert.KernelIdeal.Arrays
open Cert.ReferenceIdeal.Read
open Idealize.ShloMosaic Idealize.ShloMosaic.TcCoe Idealize.ShloMosaic.StableHlo Idealize.SL.Sem
open Cert.Lib.MatProd Cert.Lib.AffineRows Cert.Lib.GruCell

variable (m : (ℓ : Loc nD τ sig) → Buf (Elt Ideal) ℓ) (ρ : Dev nD → PrngReg) (c : Dev nD)

/-! ## Where the second region is entered -/

/-- The inner messages: the message array summed at its targets over the counts. -/
theorem s3_v53 : W3 m ρ c (Proc.devRef .tc main_v53)
    = val_main_v59 (F := Ideal) (m ((c.tc : Thread nD τ).loc main_arg0)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) := by
  dsimp only [W3, hostOps1]
  after_results_simp
  rw [s2_v41 m ρ c, W2_of_ne m ρ c main_v21 (by decide)]
  dsimp only [W1, hostOps0]
  after_results_simp <;> rfl

/-- The outer messages. -/
theorem s3_v84 : W3 m ρ c (Proc.devRef .tc main_v84)
    = val_main_v90 (F := Ideal) (m ((c.tc : Thread nD τ).loc main_arg0)) (m ((c.tc : Thread nD τ).loc main_arg4)) (m ((c.tc : Thread nD τ).loc main_arg5)) := by
  dsimp only [W3, hostOps1]
  after_results_simp
  rw [W2_of_ne m ρ c main_v17 (by decide), W2_of_ne m ρ c main_arg4 (by decide)]
  dsimp only [W1, hostOps0]
  after_results_simp <;> rfl

/-- The embeddings. -/
theorem s3_v17 : W3 m ρ c (Proc.devRef .tc main_v17) = val_main_v17 (F := Ideal) (m ((c.tc : Thread nD τ).loc main_arg0)) (m ((c.tc : Thread nD τ).loc main_arg5)) := by
  dsimp only [W3, hostOps1]
  after_results_simp
  rw [W2_of_ne m ρ c main_v17 (by decide)]
  dsimp only [W1, hostOps0]
  after_results_simp <;> rfl

theorem s3_v86 : (W3 m ρ c (Proc.devRef .tc main_v86) : S256x768.Idx → EReal) = val_main_v91 (F := Ideal) (m ((c.tc : Thread nD τ).loc main_arg11)) := by
  dsimp only [W3, hostOps1]
  after_results_simp
  rw [W2_of_ne m ρ c main_arg11 (by decide)]
  dsimp only [W1, hostOps0]
  after_results_simp <;> rfl

theorem s3_v88 : (W3 m ρ c (Proc.devRef .tc main_v88) : S256x768.Idx → EReal) = val_main_v96 (F := Ideal) (m ((c.tc : Thread nD τ).loc main_arg12)) := by
  dsimp only [W3, hostOps1]
  after_results_simp
  rw [W2_of_ne m ρ c main_arg12 (by decide)]
  dsimp only [W1, hostOps0]
  after_results_simp <;> rfl

theorem s3_arg13 : W3 m ρ c (Proc.devRef .tc main_arg13) = m ((c.tc : Thread nD τ).loc main_arg13) := by
  dsimp only [W3, hostOps1]
  after_results_simp
  rw [W2_of_ne m ρ c main_arg13 (by decide)]
  dsimp only [W1, hostOps0]
  after_results_simp <;> rfl

theorem s3_arg14 : W3 m ρ c (Proc.devRef .tc main_arg14) = m ((c.tc : Thread nD τ).loc main_arg14) := by
  dsimp only [W3, hostOps1]
  after_results_simp
  rw [W2_of_ne m ρ c main_arg14 (by decide)]
  dsimp only [W1, hostOps0]
  after_results_simp <;> rfl

theorem s3_arg15 : W3 m ρ c (Proc.devRef .tc main_arg15) = m ((c.tc : Thread nD τ).loc main_arg15) := by
  dsimp only [W3, hostOps1]
  after_results_simp
  rw [W2_of_ne m ρ c main_arg15 (by decide)]
  dsimp only [W1, hostOps0]
  after_results_simp <;> rfl

/-! ## Where it is left -/

/-- The region's output array is the reference's last state. -/
theorem s4_v89 : W4 m ρ c (Proc.devRef .tc main_v89)
    = val_main_v204 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (W4_arr m ρ c 8).trans ?_
  rw [arr_gru (V3 m ρ) c, Cert.ReferenceIdeal.Layers.ref_gru]
  show Ggru (W3 m ρ c (Proc.devRef .tc main_v17)) (W3 m ρ c (Proc.devRef .tc main_v53))
      (W3 m ρ c (Proc.devRef .tc main_v84)) (W3 m ρ c (Proc.devRef .tc main_arg15))
      (W3 m ρ c (Proc.devRef .tc main_v86)) (W3 m ρ c (Proc.devRef .tc main_v88))
      (W3 m ρ c (Proc.devRef .tc main_arg13)) (W3 m ρ c (Proc.devRef .tc main_arg14)) = _
  rw [s3_v17 m ρ c, s3_v53 m ρ c, s3_v84 m ρ c, s3_arg15 m ρ c, s3_v86 m ρ c, s3_v88 m ρ c, s3_arg13 m ρ c, s3_arg14 m ρ c]

end Cert.KernelIdeal.Stages

end
-- ==== Proof.StagesC.lean ====
/-
  The idealized kernel's result, in the reference's own terms.

  The last stretch of host operations is the reference's own last lines: the last state averaged over each graph's
  user nodes and item nodes, the two means multiplied and summed along each row, the per-graph sum of node weights
  added, and the logistic function of the sum. It reads the cell's output array, which is the reference's last state,
  and two arrays computed before the first region, which no region and no later operation writes. So the result
  buffer ends at the reference's result, as a function of the argument arrays.
-/
import proofs.«131273_j42004780155451_1_alg».proof.Proof.StagesB

set_option maxRecDepth 16384

noncomputable section

namespace Cert.KernelIdeal.Stages

open Cert.KernelIdeal Cert.KernelIdeal.Gen Cert.KernelIdeal.Arrays
open Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The result buffer after the run is the reference's result stage of the argument arrays. -/
theorem s5_v113 : W5 m ρ c (Proc.devRef .tc main_v113)
    = val_main_v228 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  dsimp only [W5, hostOps2]
  after_results_simp
  rw [s4_v89 m ρ c, W4_of_ne m ρ c main_arg2 (by decide), W4_of_ne m ρ c main_v10 (by decide)]
  dsimp only [W3, hostOps1]
  after_results_simp
  rw [W2_of_ne m ρ c main_arg2 (by decide), W2_of_ne m ρ c main_v10 (by decide)]
  dsimp only [W1, hostOps0]
  after_results_simp <;> rfl

end Cert.KernelIdeal.Stages

end
-- ==== Proof.lean ====
/-
  The claim: a kernel program of two regions — the two dense layers of the inner edge messages, and three steps of a
  gated recurrent cell over the node embeddings, the inner messages and the outer messages — among the table
  look-ups, segment means and the final pooling it shares with its reference.

  Read on the extended reals both programs compute one function of the argument arrays. The shared host operations are
  the same text in both; a region's output array, assembled from the blocks its grid points write back, is the layer
  function of the whole arrays it is given, because an entry of these layers depends on one row of the row arrays;
  and the reference's own lines for the layers are that function too: a product into zeros is the dot_general's sum,
  a change of float format is the identity, and the logistic operation is the quotient 1 / (1 + exp (−v)). No law
  that needs finite entries is used, so the precondition is never opened.

  The frames of the two kernel programs are the generated ones; the reference's frame is its generated run with the
  result dropped; the idealization rewrote no operation, so there is nothing to preserve.
-/
import proofs.«131273_j42004780155451_1_alg».proof.Defs
import proofs.«131273_j42004780155451_1_alg».proof.Proof.Gen.Kernel
import proofs.«131273_j42004780155451_1_alg».proof.Proof.Gen.Kernel.Skeleton
import proofs.«131273_j42004780155451_1_alg».proof.Proof.Gen.Kernel.Launch
import proofs.«131273_j42004780155451_1_alg».proof.Proof.Gen.Kernel.Points
import proofs.«131273_j42004780155451_1_alg».proof.Proof.Gen.Kernel.Frame
import proofs.«131273_j42004780155451_1_alg».proof.Proof.Gen.KernelIdeal
import proofs.«131273_j42004780155451_1_alg».proof.Proof.Gen.KernelIdeal.Skeleton
import proofs.«131273_j42004780155451_1_alg».proof.Proof.Gen.KernelIdeal.Launch
import proofs.«131273_j42004780155451_1_alg».proof.Proof.Gen.KernelIdeal.Points
import proofs.«131273_j42004780155451_1_alg».proof.Proof.Gen.KernelIdeal.Frame
import proofs.«131273_j42004780155451_1_alg».proof.Proof.Gen.ReferenceIdeal
import proofs.«131273_j42004780155451_1_alg».proof.Proof.RefRun
import proofs.«131273_j42004780155451_1_alg».proof.Proof.RefRead
import proofs.«131273_j42004780155451_1_alg».proof.Proof.Gen.Pre_finite_inputs
import proofs.«131273_j42004780155451_1_alg».proof.Proof.KernelRun
import proofs.«131273_j42004780155451_1_alg».proof.Proof.StagesC
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result buffer at the reference's result stage of the (agreeing) argument arrays. -/
theorem algebraic : Cert.algebraic_KernelIdeal_ReferenceIdeal := by
  intro m ρ m' ρ' _ hagree
  refine ⟨fun c => Cert.KernelIdeal.Gen.W5 m ρ c (Proc.devRef .tc Cert.KernelIdeal.main_v113),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v228_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  exact (Cert.KernelIdeal.Stages.s5_v113 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
